-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg5 : FVec F S64x32 .f32) (main_arg6 : FVec F S32 .f32) (main_arg7 : FVec F S64x32 .f32) (main_arg8 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x32 .f32) (main_arg6 : FVec F S32 .f32) (main_arg7 : FVec F S64x32 .f32) (main_arg8 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S6800x64 : Shape := ⟨2, ![6800, 64]⟩
abbrev S6800x1 : Shape := ⟨2, ![6800, 1]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S6800x32 : Shape := ⟨2, ![6800, 32]⟩
abbrev S1x32 : Shape := ⟨2, ![1, 32]⟩

abbrev nBuf : Space → Nat
  | .hbm => 109
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x32, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x32, .f32⟩
  | .hbm, ⟨83, _⟩ => ⟨S1700000x32, .f32⟩
  | .hbm, ⟨84, _⟩ => ⟨S_, .f32⟩
  | .hbm, ⟨85, _⟩ => ⟨S100000x32, .f32⟩
  | .hbm, ⟨86, _⟩ => ⟨S1700000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S100000x32, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x32, .f32⟩
  | .hbm, ⟨101, _⟩ => ⟨S1700000x32, .f32⟩
  | .hbm, ⟨102, _⟩ => ⟨S_, .f32⟩
  | .hbm, ⟨103, _⟩ => ⟨S100000x32, .f32⟩
  | .hbm, ⟨104, _⟩ => ⟨S1700000x1, .i32⟩
  | .hbm, ⟨105, _⟩ => ⟨S100000x32, .f32⟩
  | .hbm, ⟨106, _⟩ => ⟨S1x32, .f32⟩
  | .hbm, ⟨107, _⟩ => ⟨S100000x32, .f32⟩
  | .hbm, ⟨108, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S6800x64, .f32⟩
  | .local _ .vmem, ⟨6, _⟩ => ⟨S6800x64, .f32⟩
  | .local _ .vmem, ⟨7, _⟩ => ⟨S6800x1, .f32⟩
  | .local _ .vmem, ⟨8, _⟩ => ⟨S6800x1, .f32⟩
  | .local _ .vmem, ⟨9, _⟩ => ⟨S6800x64, .f32⟩
  | .local _ .vmem, ⟨10, _⟩ => ⟨S6800x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S10000x32, .f32⟩
  | .local _ .vmem, ⟨15, _⟩ => ⟨S10000x32, .f32⟩
  | .local _ .vmem, ⟨16, _⟩ => ⟨S6800x32, .f32⟩
  | .local _ .vmem, ⟨17, _⟩ => ⟨S6800x32, .f32⟩
  | .local _ .vmem, ⟨18, _⟩ => ⟨S6800x1, .f32⟩
  | .local _ .vmem, ⟨19, _⟩ => ⟨S6800x1, .f32⟩
  | .local _ .vmem, ⟨20, _⟩ => ⟨S6800x32, .f32⟩
  | .local _ .vmem, ⟨21, _⟩ => ⟨S6800x32, .f32⟩
  | .local _ .vmem, ⟨22, _⟩ => ⟨S10000x64, .f32⟩
  | .local _ .vmem, ⟨23, _⟩ => ⟨S10000x64, .f32⟩
  | .local _ .vmem, ⟨24, _⟩ => ⟨S64x32, .f32⟩
  | .local _ .vmem, ⟨25, _⟩ => ⟨S10000x32, .f32⟩
  | .local _ .vmem, ⟨26, _⟩ => ⟨S10000x32, .f32⟩
  | .local _ .vmem, ⟨27, _⟩ => ⟨S6800x32, .f32⟩
  | .local _ .vmem, ⟨28, _⟩ => ⟨S6800x32, .f32⟩
  | .local _ .vmem, ⟨29, _⟩ => ⟨S6800x1, .f32⟩
  | .local _ .vmem, ⟨30, _⟩ => ⟨S6800x1, .f32⟩
  | .local _ .vmem, ⟨31, _⟩ => ⟨S6800x32, .f32⟩
  | .local _ .vmem, ⟨32, _⟩ => ⟨S6800x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6800x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6800x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6800x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6800x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6800x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6800x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![250], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6800x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6800x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6800x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S6800x64_S6800x64_0_0 : ∀ a, (![0, 0] : Fin 2 → Nat) a + S6800x64.size a ≤ S6800x64.size a
  h_S6800x64 : 0 < S6800x64.numel
  shapeCasts_S6800x64_S6800x64 : S6800x64.ShapeCasts S6800x64
  inb_S6800x1_S6800x1_0_0 : ∀ a, (![0, 0] : Fin 2 → Nat) a + S6800x1.size a ≤ S6800x1.size a
  h_S6800x1 : 0 < S6800x1.numel
  shapeCasts_S6800x1_S6800x1 : S6800x1.ShapeCasts S6800x1
  broadcasts_S6800x1_S6800x64 : S6800x1.Broadcasts S6800x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  inb_S6800x32_S6800x32_0_0 : ∀ a, (![0, 0] : Fin 2 → Nat) a + S6800x32.size a ≤ S6800x32.size a
  h_S6800x32 : 0 < S6800x32.numel
  shapeCasts_S6800x32_S6800x32 : S6800x32.ShapeCasts S6800x32
  broadcasts_S6800x1_S6800x32 : S6800x1.Broadcasts S6800x32
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6800x64.size a ≤ S1700000x64.size a
  hwx1_0 : ∀ i : grid1.Coords, EltTy.bits .f32 = 32 ∨ (Rect.block (s := S1700000x64) S6800x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6800x1.size a ≤ S1700000x1.size a
  hwx1_1 : ∀ i : grid1.Coords, EltTy.bits .f32 = 32 ∨ (Rect.block (s := S1700000x1) S6800x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6800x64.size a ≤ S1700000x64.size a
  hwx1_2 : ∀ i : grid1.Coords, EltTy.bits .f32 = 32 ∨ (Rect.block (s := S1700000x64) S6800x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6800x32.size a ≤ S1700000x32.size a
  hwx3_0 : ∀ i : grid3.Coords, EltTy.bits .f32 = 32 ∨ (Rect.block (s := S1700000x32) S6800x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6800x1.size a ≤ S1700000x1.size a
  hwx3_1 : ∀ i : grid3.Coords, EltTy.bits .f32 = 32 ∨ (Rect.block (s := S1700000x1) S6800x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6800x32.size a ≤ S1700000x32.size a
  hwx3_2 : ∀ i : grid3.Coords, EltTy.bits .f32 = 32 ∨ (Rect.block (s := S1700000x32) S6800x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S100000x32.size a
  hwx4_2 : ∀ i : grid4.Coords, EltTy.bits .f32 = 32 ∨ (Rect.block (s := S100000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6800x32.size a ≤ S1700000x32.size a
  hwx5_0 : ∀ i : grid5.Coords, EltTy.bits .f32 = 32 ∨ (Rect.block (s := S1700000x32) S6800x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6800x1.size a ≤ S1700000x1.size a
  hwx5_1 : ∀ i : grid5.Coords, EltTy.bits .f32 = 32 ∨ (Rect.block (s := S1700000x1) S6800x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6800x32.size a ≤ S1700000x32.size a
  hwx5_2 : ∀ i : grid5.Coords, EltTy.bits .f32 = 32 ∨ (Rect.block (s := S1700000x32) S6800x32.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S6800x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S6800x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S6800x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S6800x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S6800x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S6800x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v49) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S6800x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v32) S6800x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v73) S6800x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x32, .f32⟩
  | 6 => ⟨S32, .f32⟩
  | 7 => ⟨S64x32, .f32⟩
  | 8 => ⟨S32, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S100000, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S1x1600000, .i32⟩
  | 75 => ⟨S1600000, .i32⟩
  | 76 => ⟨S1x1600000, .i32⟩
  | 77 => ⟨S1600000, .i32⟩
  | 78 => ⟨S100000, .i32⟩
  | 79 => ⟨S1700000, .i32⟩
  | 80 => ⟨S1700000, .i32⟩
  | 81 => ⟨S_, .f32⟩
  | 82 => ⟨S100000, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S100000x32, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x32, .f32⟩
  | 126 => ⟨S1700000x1, .f32⟩
  | 127 => ⟨S1700000x32, .f32⟩
  | _ => ⟨S100000x128, .f32⟩

abbrev hbmTy0_1 (i : Nat) : BufTy := match i % 128 with
  | 0 => ⟨S1700000x32, .f32⟩
  | 1 => ⟨S_, .f32⟩
  | 2 => ⟨S100000x32, .f32⟩
  | 3 => ⟨S1700000x1, .i32⟩
  | 4 => ⟨S100000x32, .f32⟩
  | 5 => ⟨S1x32, .f32⟩
  | 6 => ⟨S100000x32, .f32⟩
  | 7 => ⟨S100000x32, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x32, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x32, .f32⟩
  | 60 => ⟨S1700000x1, .f32⟩
  | 61 => ⟨S1700000x32, .f32⟩
  | 62 => ⟨S1700000x32, .f32⟩
  | 63 => ⟨S_, .f32⟩
  | 64 => ⟨S100000x32, .f32⟩
  | 65 => ⟨S1700000x1, .i32⟩
  | 66 => ⟨S100000x32, .f32⟩
  | 67 => ⟨S1x32, .f32⟩
  | 68 => ⟨S100000x32, .f32⟩
  | 69 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_c_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_15 : Ref sig .tc := ⟨.hbm, 106, rfl⟩
abbrev main_v74 : Ref sig .tc := ⟨.hbm, 107, rfl⟩
abbrev main_v75 : Ref sig .tc := ⟨.hbm, 108, rfl⟩
abbrev main_c_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_17 : Ref sig .tc := ⟨.hbm, 117, rfl⟩
abbrev main_v83 : Ref sig .tc := ⟨.hbm, 118, rfl⟩
abbrev main_v84 : Ref sig .tc := ⟨.hbm, 119, rfl⟩
abbrev main_c_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_20 : Ref sig .tc := ⟨.hbm, 143, rfl⟩
abbrev main_v106 : Ref sig .tc := ⟨.hbm, 144, rfl⟩
abbrev main_v107 : Ref sig .tc := ⟨.hbm, 145, rfl⟩
abbrev main_cst_21 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_22 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_23 : Ref sig .tc := ⟨.hbm, 154, rfl⟩
abbrev main_call3_v0 : Ref sig .tc := ⟨.hbm, 155, rfl⟩
abbrev main_call3_v1 : Ref sig .tc := ⟨.hbm, 156, rfl⟩
abbrev main_v114 : Ref sig .tc := ⟨.hbm, 157, rfl⟩
abbrev main_c_24 : Ref sig .tc := ⟨.hbm, 158, rfl⟩
abbrev main_v115 : Ref sig .tc := ⟨.hbm, 159, rfl⟩
abbrev main_v116 : Ref sig .tc := ⟨.hbm, 160, rfl⟩
abbrev main_c_25 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_c_26 : Ref sig .tc := ⟨.hbm, 168, rfl⟩
abbrev main_v123 : Ref sig .tc := ⟨.hbm, 169, rfl⟩
abbrev main_v124 : Ref sig .tc := ⟨.hbm, 170, rfl⟩
abbrev main_c_27 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_c_28 : Ref sig .tc := ⟨.hbm, 179, rfl⟩
abbrev main_v132 : Ref sig .tc := ⟨.hbm, 180, rfl⟩
abbrev main_v133 : Ref sig .tc := ⟨.hbm, 181, rfl⟩
abbrev main_c_29 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_30 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The program's run, with its two results named.  The run is a chain of fifteen segments — stretches of host
  operations alternating with the six Pallas calls — and after the last segment every buffer of the device holds the
  contents of the last boundary.  Read there: the two result arrays hold that boundary's contents at their own
  buffers, and the nine argument arrays hold what they held at launch, since no segment writes them.
-/
import proofs.«117165_j50242527428955_2_alg».proof.Proof.Gen.KernelIdeal.Frame

set_option maxRecDepth 16384

noncomputable section

namespace Cert.KernelIdeal.LastBoundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; at the end the two results hold the last boundary's
    contents and the arguments are as launched. -/
theorem run : θ_run defs (onTc (τ := τ) (main (F := F))) ⟨m, fun _ => 0, ρ⟩ (fun r => ∀ c : Dev nD,
      r.2.mem ((c.tc : Thread nD τ).loc main_v64) = W15 m ρ c (Proc.devRef .tc main_v64)
      ∧ r.2.mem ((c.tc : Thread nD τ).loc main_v79) = W15 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v64 (by decide)),
       h c _ (mem_uc main_v79 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.KernelIdeal.LastBoundary

end
-- ==== Proof.Entry0.lean ====
/-
  The device's buffers after the first of the three stretches of host operations that precede the first Pallas call.
  The stretch concatenates each row of the edge list with the self loops 0 … 99999 (sources, targets), appends a
  weight 1 per self loop, adds the weights up per target node (the degree), and forms the test "degree > 0" and
  1/sqrt(degree).  These are, operation for operation, the host program's own first stages, so each buffer holds the
  host program's stage of the same arguments; the arguments themselves are untouched by all three stretches.
-/
import proofs.«117165_j50242527428955_2_alg».proof.Proof.Gen.KernelIdeal.Frame
import proofs.«117165_j50242527428955_2_alg».proof.Proof.Gen.ReferenceIdeal.Read
import Idealize.ShloMosaic.Lib.StableHlo.Run

set_option maxRecDepth 16384

noncomputable section

namespace Cert.KernelIdeal.Entry0

open Cert.KernelIdeal Cert.KernelIdeal.Gen
open Idealize.ShloMosaic Idealize.ShloMosaic.TcCoe Idealize.SL.Sem

/-- A buffer that no operation of a stretch of host operations writes holds after the stretch what it held before. -/
local macro "kept_through" ops:ident "at" b:ident : term =>
  `(StableHlo.after_of_forall_not_mem (b := Proc.devRef .tc $b) _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## The arguments are as launched when the first Pallas call is entered -/

theorem at3_arg0 : W3 m ρ c (Proc.devRef .tc main_arg0) = (m ((c : Thread nD τ).loc main_arg0)) :=
  (kept_through hostOps0_2 at main_arg0 : W3 m ρ c (Proc.devRef .tc main_arg0) = W2 m ρ c (Proc.devRef .tc main_arg0)).trans
    ((kept_through hostOps0_1 at main_arg0 : W2 m ρ c (Proc.devRef .tc main_arg0) = W1 m ρ c (Proc.devRef .tc main_arg0)).trans
      (kept_through hostOps0 at main_arg0 : W1 m ρ c (Proc.devRef .tc main_arg0) = W0 m ρ c (Proc.devRef .tc main_arg0)))

theorem at3_arg3 : W3 m ρ c (Proc.devRef .tc main_arg3) = (m ((c : Thread nD τ).loc main_arg3)) :=
  (kept_through hostOps0_2 at main_arg3 : W3 m ρ c (Proc.devRef .tc main_arg3) = W2 m ρ c (Proc.devRef .tc main_arg3)).trans
    ((kept_through hostOps0_1 at main_arg3 : W2 m ρ c (Proc.devRef .tc main_arg3) = W1 m ρ c (Proc.devRef .tc main_arg3)).trans
      (kept_through hostOps0 at main_arg3 : W1 m ρ c (Proc.devRef .tc main_arg3) = W0 m ρ c (Proc.devRef .tc main_arg3)))

theorem at3_arg4 : W3 m ρ c (Proc.devRef .tc main_arg4) = (m ((c : Thread nD τ).loc main_arg4)) :=
  (kept_through hostOps0_2 at main_arg4 : W3 m ρ c (Proc.devRef .tc main_arg4) = W2 m ρ c (Proc.devRef .tc main_arg4)).trans
    ((kept_through hostOps0_1 at main_arg4 : W2 m ρ c (Proc.devRef .tc main_arg4) = W1 m ρ c (Proc.devRef .tc main_arg4)).trans
      (kept_through hostOps0 at main_arg4 : W1 m ρ c (Proc.devRef .tc main_arg4) = W0 m ρ c (Proc.devRef .tc main_arg4)))

theorem at3_arg5 : W3 m ρ c (Proc.devRef .tc main_arg5) = (m ((c : Thread nD τ).loc main_arg5)) :=
  (kept_through hostOps0_2 at main_arg5 : W3 m ρ c (Proc.devRef .tc main_arg5) = W2 m ρ c (Proc.devRef .tc main_arg5)).trans
    ((kept_through hostOps0_1 at main_arg5 : W2 m ρ c (Proc.devRef .tc main_arg5) = W1 m ρ c (Proc.devRef .tc main_arg5)).trans
      (kept_through hostOps0 at main_arg5 : W1 m ρ c (Proc.devRef .tc main_arg5) = W0 m ρ c (Proc.devRef .tc main_arg5)))

theorem at3_arg6 : W3 m ρ c (Proc.devRef .tc main_arg6) = (m ((c : Thread nD τ).loc main_arg6)) :=
  (kept_through hostOps0_2 at main_arg6 : W3 m ρ c (Proc.devRef .tc main_arg6) = W2 m ρ c (Proc.devRef .tc main_arg6)).trans
    ((kept_through hostOps0_1 at main_arg6 : W2 m ρ c (Proc.devRef .tc main_arg6) = W1 m ρ c (Proc.devRef .tc main_arg6)).trans
      (kept_through hostOps0 at main_arg6 : W1 m ρ c (Proc.devRef .tc main_arg6) = W0 m ρ c (Proc.devRef .tc main_arg6)))

theorem at3_arg7 : W3 m ρ c (Proc.devRef .tc main_arg7) = (m ((c : Thread nD τ).loc main_arg7)) :=
  (kept_through hostOps0_2 at main_arg7 : W3 m ρ c (Proc.devRef .tc main_arg7) = W2 m ρ c (Proc.devRef .tc main_arg7)).trans
    ((kept_through hostOps0_1 at main_arg7 : W2 m ρ c (Proc.devRef .tc main_arg7) = W1 m ρ c (Proc.devRef .tc main_arg7)).trans
      (kept_through hostOps0 at main_arg7 : W1 m ρ c (Proc.devRef .tc main_arg7) = W0 m ρ c (Proc.devRef .tc main_arg7)))

theorem at3_arg8 : W3 m ρ c (Proc.devRef .tc main_arg8) = (m ((c : Thread nD τ).loc main_arg8)) :=
  (kept_through hostOps0_2 at main_arg8 : W3 m ρ c (Proc.devRef .tc main_arg8) = W2 m ρ c (Proc.devRef .tc main_arg8)).trans
    ((kept_through hostOps0_1 at main_arg8 : W2 m ρ c (Proc.devRef .tc main_arg8) = W1 m ρ c (Proc.devRef .tc main_arg8)).trans
      (kept_through hostOps0 at main_arg8 : W1 m ρ c (Proc.devRef .tc main_arg8) = W0 m ρ c (Proc.devRef .tc main_arg8)))

/-! ## After the first stretch: sources, targets, weights with the self loops' ones, the degree test and 1/sqrt(degree) -/

theorem at1_v5 : W1 m ρ c (Proc.devRef .tc main_v5) = Cert.ReferenceIdeal.Read.val_main_v5 (F := Ideal) (m ((c : Thread nD τ).loc main_arg1)) := by
  show StableHlo.after hostOps0 (W0 m ρ c) (Proc.devRef .tc main_v5) = _
  after_results
  rfl

theorem at1_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results
  rfl

theorem at1_v8 : W1 m ρ c (Proc.devRef .tc main_v8) = Cert.ReferenceIdeal.Read.val_main_v8 (F := Ideal) (m ((c : Thread nD τ).loc main_arg2)) := by
  show StableHlo.after hostOps0 (W0 m ρ c) (Proc.devRef .tc main_v8) = _
  after_results
  rfl

theorem at1_v13 : W1 m ρ c (Proc.devRef .tc main_v13) = Cert.ReferenceIdeal.Read.val_main_v13 (F := Ideal) (m ((c : Thread nD τ).loc main_arg1)) (m ((c : Thread nD τ).loc main_arg2)) := by
  show StableHlo.after hostOps0 (W0 m ρ c) (Proc.devRef .tc main_v13) = _
  after_results
  rfl

theorem at1_v14 : W1 m ρ c (Proc.devRef .tc main_v14) = Cert.ReferenceIdeal.Read.val_main_v14 (F := Ideal) (m ((c : Thread nD τ).loc main_arg1)) (m ((c : Thread nD τ).loc main_arg2)) := by
  show StableHlo.after hostOps0 (W0 m ρ c) (Proc.devRef .tc main_v14) = _
  after_results
  rfl

theorem at1_cst_2 : W1 m ρ c (Proc.devRef .tc main_cst_2) = Cert.ReferenceIdeal.Read.val_main_cst_2 (F := Ideal) := by
  show StableHlo.after hostOps0 (W0 m ρ c) (Proc.devRef .tc main_cst_2) = _
  after_results
  rfl

/-! ## These are not written by the second stretch -/

theorem at2_v5 : W2 m ρ c (Proc.devRef .tc main_v5) = Cert.ReferenceIdeal.Read.val_main_v5 (F := Ideal) (m ((c : Thread nD τ).loc main_arg1)) :=
  (kept_through hostOps0_1 at main_v5 : W2 m ρ c (Proc.devRef .tc main_v5) = W1 m ρ c (Proc.devRef .tc main_v5)).trans (at1_v5 m ρ c)

theorem at2_v6 : W2 m ρ c (Proc.devRef .tc main_v6) = Cert.ReferenceIdeal.Read.val_main_v6 (F := Ideal) (m ((c : Thread nD τ).loc main_arg1)) :=
  (kept_through hostOps0_1 at main_v6 : W2 m ρ c (Proc.devRef .tc main_v6) = W1 m ρ c (Proc.devRef .tc main_v6)).trans (at1_v6 m ρ c)

theorem at2_v8 : W2 m ρ c (Proc.devRef .tc main_v8) = Cert.ReferenceIdeal.Read.val_main_v8 (F := Ideal) (m ((c : Thread nD τ).loc main_arg2)) :=
  (kept_through hostOps0_1 at main_v8 : W2 m ρ c (Proc.devRef .tc main_v8) = W1 m ρ c (Proc.devRef .tc main_v8)).trans (at1_v8 m ρ c)

end Cert.KernelIdeal.Entry0

end
-- ==== Proof.Entry1.lean ====
/-
  The device's buffers when the first Pallas call is entered, continued.  The second stretch of host operations is
  the call "where(degree > 0, 1/sqrt(degree), 0)"; the third replaces a negative node number v by v + 100000, gathers
  dinv at the sources and at the targets, and multiplies  dinv[source] · weight · dinv[target]  into a column of
  1,700,000 factors.  Again these are the host program's own stages of the same arguments.
-/
import proofs.«117165_j50242527428955_2_alg».proof.Proof.Gen.KernelIdeal.Frame
import proofs.«117165_j50242527428955_2_alg».proof.Proof.Gen.ReferenceIdeal.Read
import Idealize.ShloMosaic.Lib.StableHlo.Run
import proofs.«117165_j50242527428955_2_alg».proof.Proof.Entry0

set_option maxRecDepth 16384

noncomputable section

namespace Cert.KernelIdeal.Entry1

open Cert.KernelIdeal Cert.KernelIdeal.Gen
open Idealize.ShloMosaic Idealize.ShloMosaic.TcCoe Idealize.SL.Sem

/-- A buffer that no operation of a stretch of host operations writes holds after the stretch what it held before. -/
local macro "kept_through" ops:ident "at" b:ident : term =>
  `(StableHlo.after_of_forall_not_mem (b := Proc.devRef .tc $b) _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

open Cert.KernelIdeal.Entry0

variable (m : (ℓ : Loc nD τ sig) → Buf (Elt Ideal) ℓ) (ρ : Dev nD → PrngReg) (c : Dev nD)

/-- The three operations of the call "where(test, value, 0)" are a copy of the scalar 0, its spread over the 100,000 nodes,
    and the choice between the two arrays by the test. -/
theorem where_stretch : (hostOps0_1 : List (HloOp τ sig (Elt Ideal))) =
    [ StableHlo.unary main_cst_2 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.ternary main_v13 main_v14 main_call0_v1 main_v15 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] :=
  rfl

theorem at2_v15 : W2 m ρ c (Proc.devRef .tc main_v15) = Cert.ReferenceIdeal.Read.val_main_v15 (F := Ideal) (m ((c : Thread nD τ).loc main_arg1)) (m ((c : Thread nD τ).loc main_arg2)) := by
  show StableHlo.after hostOps0_1 (W1 m ρ c) (Proc.devRef .tc main_v15) = _
  have h13 := at1_v13 m ρ c
  have h14 := at1_v14 m ρ c
  have hc := at1_cst_2 m ρ c
  generalize W1 m ρ c = U at h13 h14 hc ⊢
  rw [where_stretch]
  after_results
  rw [h13, h14, hc]
  rfl

/-! ## After the third stretch: sources and targets are untouched, and the factor column -/

theorem at3_v5 : W3 m ρ c (Proc.devRef .tc main_v5) = Cert.ReferenceIdeal.Read.val_main_v5 (F := Ideal) (m ((c : Thread nD τ).loc main_arg1)) :=
  (kept_through hostOps0_2 at main_v5 : W3 m ρ c (Proc.devRef .tc main_v5) = W2 m ρ c (Proc.devRef .tc main_v5)).trans (at2_v5 m ρ c)

theorem at3_v6 : W3 m ρ c (Proc.devRef .tc main_v6) = Cert.ReferenceIdeal.Read.val_main_v6 (F := Ideal) (m ((c : Thread nD τ).loc main_arg1)) :=
  (kept_through hostOps0_2 at main_v6 : W3 m ρ c (Proc.devRef .tc main_v6) = W2 m ρ c (Proc.devRef .tc main_v6)).trans (at2_v6 m ρ c)

set_option maxHeartbeats 1000000 in
theorem at3_v32 : W3 m ρ c (Proc.devRef .tc main_v32) = Cert.ReferenceIdeal.Read.val_main_v40 (F := Ideal) (m ((c : Thread nD τ).loc main_arg1)) (m ((c : Thread nD τ).loc main_arg2)) := by
  show StableHlo.after hostOps0_2 (W2 m ρ c) (Proc.devRef .tc main_v32) = _
  have h5 := at2_v5 m ρ c
  have h6 := at2_v6 m ρ c
  have h8 := at2_v8 m ρ c
  have h15 := at2_v15 m ρ c
  generalize W2 m ρ c = U at h5 h6 h8 h15 ⊢
  after_results_simp
  rw [h5, h6, h8, h15]
  rfl

end Cert.KernelIdeal.Entry1

end
-- ==== Proof.Products.lean ====
/-
  A matrix product read at one entry.  At the exact (extended-real) reading of the floats, both the host's
  dot_general and a Pallas block's matmul into a zero accumulator are the plain sum
      (x · w)(r, q) = Σ_k x(r, k) · w(k, q),
  the sum running over the one contracted axis.  Stated here for the two products of the program (128 and 64 contracted
  entries), once for the host's whole arrays of 100,000 rows and once for a block of 10,000 rows.
-/
import proofs.«117165_j50242527428955_2_alg».proof.Proof.Gen.KernelIdeal
import proofs.«117165_j50242527428955_2_alg».proof.Proof.Gen.ReferenceIdeal
import Idealize.ShloMosaic.Lib.ValueIdx
import Idealize.ShloMosaic.PureOps.Ideal.Laws

set_option maxRecDepth 16384

noncomputable section

open Idealize.ShloMosaic Idealize.ShloMosaic.ValueIdx

namespace Cert.Products

/-! ### The host's product of a 100000×128 array and a 128×64 array -/

theorem host128_lhs_row (i : Cert.ReferenceIdeal.S100000x64.Idx) (κ : (Cert.ReferenceIdeal.dot_S100000x128_S128x64_S100000x64_1_0_0_1_n_n).contr.Idx) : ((Cert.ReferenceIdeal.dot_S100000x128_S128x64_S100000x64_1_0_0_1_n_n).lhsIdx i κ 0).val = (i 0).val := by
  unfold DotDims.lhsIdx
  rw [dif_neg (show ¬(0 : Fin Cert.ReferenceIdeal.S100000x128.rank) ∈ (Cert.ReferenceIdeal.dot_S100000x128_S128x64_S100000x64_1_0_0_1_n_n).lhsBatch by decide), dif_pos (show (0 : Fin Cert.ReferenceIdeal.S100000x128.rank) ∈ (Cert.ReferenceIdeal.dot_S100000x128_S128x64_S100000x64_1_0_0_1_n_n).lhsNonContracting by decide)]
  rfl
theorem host128_lhs_col (i : Cert.ReferenceIdeal.S100000x64.Idx) (κ : (Cert.ReferenceIdeal.dot_S100000x128_S128x64_S100000x64_1_0_0_1_n_n).contr.Idx) : ((Cert.ReferenceIdeal.dot_S100000x128_S128x64_S100000x64_1_0_0_1_n_n).lhsIdx i κ 1).val = (κ ⟨0, by decide⟩).val :=
  (Cert.ReferenceIdeal.dot_S100000x128_S128x64_S100000x64_1_0_0_1_n_n).lhsIdx_val_of_single rfl i κ
theorem host128_rhs_row (i : Cert.ReferenceIdeal.S100000x64.Idx) (κ : (Cert.ReferenceIdeal.dot_S100000x128_S128x64_S100000x64_1_0_0_1_n_n).contr.Idx) : ((Cert.ReferenceIdeal.dot_S100000x128_S128x64_S100000x64_1_0_0_1_n_n).rhsIdx i κ 0).val = (κ ⟨0, by decide⟩).val :=
  (Cert.ReferenceIdeal.dot_S100000x128_S128x64_S100000x64_1_0_0_1_n_n).rhsIdx_val_of_single rfl i κ
theorem host128_rhs_col (i : Cert.ReferenceIdeal.S100000x64.Idx) (κ : (Cert.ReferenceIdeal.dot_S100000x128_S128x64_S100000x64_1_0_0_1_n_n).contr.Idx) : ((Cert.ReferenceIdeal.dot_S100000x128_S128x64_S100000x64_1_0_0_1_n_n).rhsIdx i κ 1).val = (i 1).val := by
  unfold DotDims.rhsIdx
  rw [dif_neg (show ¬(1 : Fin Cert.ReferenceIdeal.S128x64.rank) ∈ (Cert.ReferenceIdeal.dot_S100000x128_S128x64_S100000x64_1_0_0_1_n_n).rhsBatch by decide), dif_pos (show (1 : Fin Cert.ReferenceIdeal.S128x64.rank) ∈ (Cert.ReferenceIdeal.dot_S100000x128_S128x64_S100000x64_1_0_0_1_n_n).rhsNonContracting by decide)]
  rfl

/-- Entry (r, q) of the product is the sum over k of entry (r, k) of the left array times entry (k, q) of the right. -/
theorem host128_apply (x : FVec Ideal Cert.ReferenceIdeal.S100000x128 .f32) (w : FVec Ideal Cert.ReferenceIdeal.S128x64 .f32) (r : Fin 100000) (q : Fin 64) :
    Host.dotGeneral Cert.ReferenceIdeal.dot_S100000x128_S128x64_S100000x64_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : (Cert.ReferenceIdeal.dot_S100000x128_S128x64_S100000x64_1_0_0_1_n_n).lhsIdx (ix2 r q) ((contrEquiv1 Cert.ReferenceIdeal.dot_S100000x128_S128x64_S100000x64_1_0_0_1_n_n 128 rfl rfl).symm k) = ix2 r k := funext fun a => Fin.ext (by
    match a with
    | ⟨0, _⟩ => exact host128_lhs_row _ _
    | ⟨1, _⟩ => exact (host128_lhs_col _ _).trans hk)
  have er : (Cert.ReferenceIdeal.dot_S100000x128_S128x64_S100000x64_1_0_0_1_n_n).rhsIdx (ix2 r q) ((contrEquiv1 Cert.ReferenceIdeal.dot_S100000x128_S128x64_S100000x64_1_0_0_1_n_n 128 rfl rfl).symm k) = ix2 k q := funext fun a => Fin.ext (by
    match a with
    | ⟨0, _⟩ => exact (host128_rhs_row _ _).trans hk
    | ⟨1, _⟩ => exact host128_rhs_col _ _)
  rw [el, er]

/-! ### The host's product of a 100000×64 array and a 64×32 array -/

theorem host64_lhs_row (i : Cert.ReferenceIdeal.S100000x32.Idx) (κ : (Cert.ReferenceIdeal.dot_S100000x64_S64x32_S100000x32_1_0_0_1_n_n).contr.Idx) : ((Cert.ReferenceIdeal.dot_S100000x64_S64x32_S100000x32_1_0_0_1_n_n).lhsIdx i κ 0).val = (i 0).val := by
  unfold DotDims.lhsIdx
  rw [dif_neg (show ¬(0 : Fin Cert.ReferenceIdeal.S100000x64.rank) ∈ (Cert.ReferenceIdeal.dot_S100000x64_S64x32_S100000x32_1_0_0_1_n_n).lhsBatch by decide), dif_pos (show (0 : Fin Cert.ReferenceIdeal.S100000x64.rank) ∈ (Cert.ReferenceIdeal.dot_S100000x64_S64x32_S100000x32_1_0_0_1_n_n).lhsNonContracting by decide)]
  rfl
theorem host64_lhs_col (i : Cert.ReferenceIdeal.S100000x32.Idx) (κ : (Cert.ReferenceIdeal.dot_S100000x64_S64x32_S100000x32_1_0_0_1_n_n).contr.Idx) : ((Cert.ReferenceIdeal.dot_S100000x64_S64x32_S100000x32_1_0_0_1_n_n).lhsIdx i κ 1).val = (κ ⟨0, by decide⟩).val :=
  (Cert.ReferenceIdeal.dot_S100000x64_S64x32_S100000x32_1_0_0_1_n_n).lhsIdx_val_of_single rfl i κ
theorem host64_rhs_row (i : Cert.ReferenceIdeal.S100000x32.Idx) (κ : (Cert.ReferenceIdeal.dot_S100000x64_S64x32_S100000x32_1_0_0_1_n_n).contr.Idx) : ((Cert.ReferenceIdeal.dot_S100000x64_S64x32_S100000x32_1_0_0_1_n_n).rhsIdx i κ 0).val = (κ ⟨0, by decide⟩).val :=
  (Cert.ReferenceIdeal.dot_S100000x64_S64x32_S100000x32_1_0_0_1_n_n).rhsIdx_val_of_single rfl i κ
theorem host64_rhs_col (i : Cert.ReferenceIdeal.S100000x32.Idx) (κ : (Cert.ReferenceIdeal.dot_S100000x64_S64x32_S100000x32_1_0_0_1_n_n).contr.Idx) : ((Cert.ReferenceIdeal.dot_S100000x64_S64x32_S100000x32_1_0_0_1_n_n).rhsIdx i κ 1).val = (i 1).val := by
  unfold DotDims.rhsIdx
  rw [dif_neg (show ¬(1 : Fin Cert.ReferenceIdeal.S64x32.rank) ∈ (Cert.ReferenceIdeal.dot_S100000x64_S64x32_S100000x32_1_0_0_1_n_n).rhsBatch by decide), dif_pos (show (1 : Fin Cert.ReferenceIdeal.S64x32.rank) ∈ (Cert.ReferenceIdeal.dot_S100000x64_S64x32_S100000x32_1_0_0_1_n_n).rhsNonContracting by decide)]
  rfl

/-- Entry (r, q) of the product is the sum over k of entry (r, k) of the left array times entry (k, q) of the right. -/
theorem host64_apply (x : FVec Ideal Cert.ReferenceIdeal.S100000x64 .f32) (w : FVec Ideal Cert.ReferenceIdeal.S64x32 .f32) (r : Fin 100000) (q : Fin 32) :
    Host.dotGeneral Cert.ReferenceIdeal.dot_S100000x64_S64x32_S100000x32_1_0_0_1_n_n none x w (ix2 r q) = ∑ k : Fin 64, x (ix2 r k) * w (ix2 k q) := by
  simp only [Host.dotGeneral]
  rw [Ideal.dotGeneral_apply, ← Equiv.sum_comp (contrEquiv1 Cert.ReferenceIdeal.dot_S100000x64_S64x32_S100000x32_1_0_0_1_n_n 64 rfl rfl).symm]
  refine Finset.sum_congr rfl fun k _ => ?_
  have hk := contrEquiv1_symm_val Cert.ReferenceIdeal.dot_S100000x64_S64x32_S100000x32_1_0_0_1_n_n 64 rfl rfl k
  have el : (Cert.ReferenceIdeal.dot_S100000x64_S64x32_S100000x32_1_0_0_1_n_n).lhsIdx (ix2 r q) ((contrEquiv1 Cert.ReferenceIdeal.dot_S100000x64_S64x32_S100000x32_1_0_0_1_n_n 64 rfl rfl).symm k) = ix2 r k := funext fun a => Fin.ext (by
    match a with
    | ⟨0, _⟩ => exact host64_lhs_row _ _
    | ⟨1, _⟩ => exact (host64_lhs_col _ _).trans hk)
  have er : (Cert.ReferenceIdeal.dot_S100000x64_S64x32_S100000x32_1_0_0_1_n_n).rhsIdx (ix2 r q) ((contrEquiv1 Cert.ReferenceIdeal.dot_S100000x64_S64x32_S100000x32_1_0_0_1_n_n 64 rfl rfl).symm k) = ix2 k q := funext fun a => Fin.ext (by
    match a with
    | ⟨0, _⟩ => exact (host64_rhs_row _ _).trans hk
    | ⟨1, _⟩ => exact host64_rhs_col _ _)
  rw [el, er]

/-! ### One block's product of a 10000×128 array and a 128×64 array -/

theorem block128_lhs_row (i : Cert.KernelIdeal.S10000x64.Idx) (κ : (Cert.KernelIdeal.dot_S10000x128_S128x64_S10000x64_1_0_0_1_n_n).contr.Idx) : ((Cert.KernelIdeal.dot_S10000x128_S128x64_S10000x64_1_0_0_1_n_n).lhsIdx i κ 0).val = (i 0).val := by
  unfold DotDims.lhsIdx
  rw [dif_neg (show ¬(0 : Fin Cert.KernelIdeal.S10000x128.rank) ∈ (Cert.KernelIdeal.dot_S10000x128_S128x64_S10000x64_1_0_0_1_n_n).lhsBatch by decide), dif_pos (show (0 : Fin Cert.KernelIdeal.S10000x128.rank) ∈ (Cert.KernelIdeal.dot_S10000x128_S128x64_S10000x64_1_0_0_1_n_n).lhsNonContracting by decide)]
  rfl
theorem block128_lhs_col (i : Cert.KernelIdeal.S10000x64.Idx) (κ : (Cert.KernelIdeal.dot_S10000x128_S128x64_S10000x64_1_0_0_1_n_n).contr.Idx) : ((Cert.KernelIdeal.dot_S10000x128_S128x64_S10000x64_1_0_0_1_n_n).lhsIdx i κ 1).val = (κ ⟨0, by decide⟩).val :=
  (Cert.KernelIdeal.dot_S10000x128_S128x64_S10000x64_1_0_0_1_n_n).lhsIdx_val_of_single rfl i κ
theorem block128_rhs_row (i : Cert.KernelIdeal.S10000x64.Idx) (κ : (Cert.KernelIdeal.dot_S10000x128_S128x64_S10000x64_1_0_0_1_n_n).contr.Idx) : ((Cert.KernelIdeal.dot_S10000x128_S128x64_S10000x64_1_0_0_1_n_n).rhsIdx i κ 0).val = (κ ⟨0, by decide⟩).val :=
  (Cert.KernelIdeal.dot_S10000x128_S128x64_S10000x64_1_0_0_1_n_n).rhsIdx_val_of_single rfl i κ
theorem block128_rhs_col (i : Cert.KernelIdeal.S10000x64.Idx) (κ : (Cert.KernelIdeal.dot_S10000x128_S128x64_S10000x64_1_0_0_1_n_n).contr.Idx) : ((Cert.KernelIdeal.dot_S10000x128_S128x64_S10000x64_1_0_0_1_n_n).rhsIdx i κ 1).val = (i 1).val := by
  unfold DotDims.rhsIdx
  rw [dif_neg (show ¬(1 : Fin Cert.KernelIdeal.S128x64.rank) ∈ (Cert.KernelIdeal.dot_S10000x128_S128x64_S10000x64_1_0_0_1_n_n).rhsBatch by decide), dif_pos (show (1 : Fin Cert.KernelIdeal.S128x64.rank) ∈ (Cert.KernelIdeal.dot_S10000x128_S128x64_S10000x64_1_0_0_1_n_n).rhsNonContracting by decide)]
  rfl

/-- Entry (r, q) of the product is the sum over k of entry (r, k) of the left array times entry (k, q) of the right (the accumulator starts at zero). -/
theorem block128_apply {φ₁ φ₂ : FTy} (x : FVec Ideal Cert.KernelIdeal.S10000x128 φ₁) (w : FVec Ideal Cert.KernelIdeal.S128x64 φ₂) (r : Fin 10000) (q : Fin 64) :
    FloatOps.matmul Cert.KernelIdeal.dot_S10000x128_S128x64_S10000x64_1_0_0_1_n_n none x w (constant Cert.KernelIdeal.S10000x64 .f32 0x00000000#32) (ix2 r q) = ∑ k : Fin 128, x (ix2 r k) * w (ix2 k q) := by
  rw [Ideal.matmul_constant_zero_apply, ← Equiv.sum_comp (contrEquiv1 Cert.KernelIdeal.dot_S10000x128_S128x64_S10000x64_1_0_0_1_n_n 128 rfl rfl).symm]
  refine Finset.sum_congr rfl fun k _ => ?_
  have hk := contrEquiv1_symm_val Cert.KernelIdeal.dot_S10000x128_S128x64_S10000x64_1_0_0_1_n_n 128 rfl rfl k
  have el : (Cert.KernelIdeal.dot_S10000x128_S128x64_S10000x64_1_0_0_1_n_n).lhsIdx (ix2 r q) ((contrEquiv1 Cert.KernelIdeal.dot_S10000x128_S128x64_S10000x64_1_0_0_1_n_n 128 rfl rfl).symm k) = ix2 r k := funext fun a => Fin.ext (by
    match a with
    | ⟨0, _⟩ => exact block128_lhs_row _ _
    | ⟨1, _⟩ => exact (block128_lhs_col _ _).trans hk)
  have er : (Cert.KernelIdeal.dot_S10000x128_S128x64_S10000x64_1_0_0_1_n_n).rhsIdx (ix2 r q) ((contrEquiv1 Cert.KernelIdeal.dot_S10000x128_S128x64_S10000x64_1_0_0_1_n_n 128 rfl rfl).symm k) = ix2 k q := funext fun a => Fin.ext (by
    match a with
    | ⟨0, _⟩ => exact (block128_rhs_row _ _).trans hk
    | ⟨1, _⟩ => exact block128_rhs_col _ _)
  rw [el, er]

/-! ### One block's product of a 10000×64 array and a 64×32 array -/

theorem block64_lhs_row (i : Cert.KernelIdeal.S10000x32.Idx) (κ : (Cert.KernelIdeal.dot_S10000x64_S64x32_S10000x32_1_0_0_1_n_n).contr.Idx) : ((Cert.KernelIdeal.dot_S10000x64_S64x32_S10000x32_1_0_0_1_n_n).lhsIdx i κ 0).val = (i 0).val := by
  unfold DotDims.lhsIdx
  rw [dif_neg (show ¬(0 : Fin Cert.KernelIdeal.S10000x64.rank) ∈ (Cert.KernelIdeal.dot_S10000x64_S64x32_S10000x32_1_0_0_1_n_n).lhsBatch by decide), dif_pos (show (0 : Fin Cert.KernelIdeal.S10000x64.rank) ∈ (Cert.KernelIdeal.dot_S10000x64_S64x32_S10000x32_1_0_0_1_n_n).lhsNonContracting by decide)]
  rfl
theorem block64_lhs_col (i : Cert.KernelIdeal.S10000x32.Idx) (κ : (Cert.KernelIdeal.dot_S10000x64_S64x32_S10000x32_1_0_0_1_n_n).contr.Idx) : ((Cert.KernelIdeal.dot_S10000x64_S64x32_S10000x32_1_0_0_1_n_n).lhsIdx i κ 1).val = (κ ⟨0, by decide⟩).val :=
  (Cert.KernelIdeal.dot_S10000x64_S64x32_S10000x32_1_0_0_1_n_n).lhsIdx_val_of_single rfl i κ
theorem block64_rhs_row (i : Cert.KernelIdeal.S10000x32.Idx) (κ : (Cert.KernelIdeal.dot_S10000x64_S64x32_S10000x32_1_0_0_1_n_n).contr.Idx) : ((Cert.KernelIdeal.dot_S10000x64_S64x32_S10000x32_1_0_0_1_n_n).rhsIdx i κ 0).val = (κ ⟨0, by decide⟩).val :=
  (Cert.KernelIdeal.dot_S10000x64_S64x32_S10000x32_1_0_0_1_n_n).rhsIdx_val_of_single rfl i κ
theorem block64_rhs_col (i : Cert.KernelIdeal.S10000x32.Idx) (κ : (Cert.KernelIdeal.dot_S10000x64_S64x32_S10000x32_1_0_0_1_n_n).contr.Idx) : ((Cert.KernelIdeal.dot_S10000x64_S64x32_S10000x32_1_0_0_1_n_n).rhsIdx i κ 1).val = (i 1).val := by
  unfold DotDims.rhsIdx
  rw [dif_neg (show ¬(1 : Fin Cert.KernelIdeal.S64x32.rank) ∈ (Cert.KernelIdeal.dot_S10000x64_S64x32_S10000x32_1_0_0_1_n_n).rhsBatch by decide), dif_pos (show (1 : Fin Cert.KernelIdeal.S64x32.rank) ∈ (Cert.KernelIdeal.dot_S10000x64_S64x32_S10000x32_1_0_0_1_n_n).rhsNonContracting by decide)]
  rfl

/-- Entry (r, q) of the product is the sum over k of entry (r, k) of the left array times entry (k, q) of the right (the accumulator starts at zero). -/
theorem block64_apply {φ₁ φ₂ : FTy} (x : FVec Ideal Cert.KernelIdeal.S10000x64 φ₁) (w : FVec Ideal Cert.KernelIdeal.S64x32 φ₂) (r : Fin 10000) (q : Fin 32) :
    FloatOps.matmul Cert.KernelIdeal.dot_S10000x64_S64x32_S10000x32_1_0_0_1_n_n none x w (constant Cert.KernelIdeal.S10000x32 .f32 0x00000000#32) (ix2 r q) = ∑ k : Fin 64, x (ix2 r k) * w (ix2 k q) := by
  rw [Ideal.matmul_constant_zero_apply, ← Equiv.sum_comp (contrEquiv1 Cert.KernelIdeal.dot_S10000x64_S64x32_S10000x32_1_0_0_1_n_n 64 rfl rfl).symm]
  refine Finset.sum_congr rfl fun k _ => ?_
  have hk := contrEquiv1_symm_val Cert.KernelIdeal.dot_S10000x64_S64x32_S10000x32_1_0_0_1_n_n 64 rfl rfl k
  have el : (Cert.KernelIdeal.dot_S10000x64_S64x32_S10000x32_1_0_0_1_n_n).lhsIdx (ix2 r q) ((contrEquiv1 Cert.KernelIdeal.dot_S10000x64_S64x32_S10000x32_1_0_0_1_n_n 64 rfl rfl).symm k) = ix2 r k := funext fun a => Fin.ext (by
    match a with
    | ⟨0, _⟩ => exact block64_lhs_row _ _
    | ⟨1, _⟩ => exact (block64_lhs_col _ _).trans hk)
  have er : (Cert.KernelIdeal.dot_S10000x64_S64x32_S10000x32_1_0_0_1_n_n).rhsIdx (ix2 r q) ((contrEquiv1 Cert.KernelIdeal.dot_S10000x64_S64x32_S10000x32_1_0_0_1_n_n 64 rfl rfl).symm k) = ix2 k q := funext fun a => Fin.ext (by
    match a with
    | ⟨0, _⟩ => exact (block64_rhs_row _ _).trans hk
    | ⟨1, _⟩ => exact block64_rhs_col _ _)
  rw [el, er]

end Cert.Products

end
-- ==== Proof.Linear0.lean ====
/-
  Pallas call 0 of the program multiplies a 100,000 × 128 array by a 128 × 64 weight array, ten blocks of 10,000
  rows at a time; the weight block is the whole weight array at every point.  Reading the floats as exact numbers the
  cast to bfloat16 changes nothing and the accumulator starts at zero, so block t of the output holds, at row p and
  column q, the sum over k of the left array at (10000·t + p, k) times the weight at (k, q).  The ten blocks tile the
  output, so the whole output array is the host's matrix product of the two arrays.
-/
import proofs.«117165_j50242527428955_2_alg».proof.Proof.Gen.KernelIdeal.Frame
import proofs.«117165_j50242527428955_2_alg».proof.Proof.Products
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Linear0

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- One block's arithmetic at row p, column q: the plain sum of products. -/
theorem block_product_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  refine (Cert.Products.block128_apply _ _ p q).trans ?_
  simp only [shapeCast_self, truncf_apply]

/-- Block t of the left array and of the output starts at row 10000·t, column 0; the weight block is always block (0, 0). -/
theorem block_origin : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block of point t, at (p, k), is the left array at (10000·t + p, k). -/
theorem left_block_apply (c : Dev nD) (t : Fin cfg0.N) (y : S10000x128.Idx) (k : S100000x128.Idx)
    (hk0 : (k 0).val = 10000 * t.val + (y 0).val) (hk1 : (k 1).val = (y 1).val) :
    (iblk0 V c 0 t : Vec Ideal S10000x128 .f32) y = (V c main_arg0 : S100000x128.Idx → Elt Ideal .f32) k := by
  obtain ⟨e0, e1, -⟩ := block_origin t
  unfold iblk0
  rw [View.read_apply]
  show V c main_arg0 _ = V c main_arg0 _
  congr 1
  funext a
  apply Fin.ext
  match a with
  | ⟨0, _⟩ => show win0_0.index t 0 * 10000 + 1 * (y 0).val = (k 0).val; rw [e0, hk0]; omega
  | ⟨1, _⟩ => show win0_0.index t 1 * 128 + 1 * (y 1).val = (k 1).val; rw [e1, hk1]; omega

/-- The weight block of any point is the weight array. -/
theorem weight_block_apply (c : Dev nD) (t : Fin cfg0.N) (y : S128x64.Idx) :
    (iblk0 V c 1 t : Vec Ideal S128x64 .f32) y = (V c main_arg3 : S128x64.Idx → Elt Ideal .f32) y := by
  obtain ⟨-, -, e2, e3, -⟩ := block_origin t
  unfold iblk0
  rw [View.read_apply]
  show V c main_arg3 _ = V c main_arg3 _
  congr 1
  funext a
  apply Fin.ext
  match a with
  | ⟨0, _⟩ => show win0_1.index t 0 * 128 + 1 * (y 0).val = (y 0).val; rw [e2]; omega
  | ⟨1, _⟩ => show win0_1.index t 1 * 64 + 1 * (y 1).val = (y 1).val; rw [e3]; omega

/-- The whole output: the host's product of the left array and the weights. -/
abbrev product (c : Dev nD) : FVec Ideal S100000x64 .f32 :=
  Host.dotGeneral (F := Ideal) (φ₁ := .f32) (φ₂ := .f32) Cert.ReferenceIdeal.dot_S100000x128_S128x64_S100000x64_1_0_0_1_n_n none
    (V c main_arg0) (V c main_arg3)

/-- What point t writes back is block t of that product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨-, -, -, -, e4, e5⟩ := block_origin t
  have ht : t.val < 10 := lt_of_lt_of_eq t.isLt N_0
  funext j
  obtain ⟨p, q, rfl⟩ : ∃ (p : Fin 10000) (q : Fin 64), j = ix2 p q := ⟨j 0, j 1, eq_ix2 j⟩
  have hlt : 10000 * t.val + p.val < 100000 := by have := p.isLt; omega
  show k0_pay1 (iblk0 V c 0 t) (iblk0 V c 1 t) (ix2 p q) = product V c (((cfg0.win 2).blk t).view.emb (ix2 p q))
  have hrow : (((cfg0.win 2).blk t).view.emb (ix2 p q) 0).val = 10000 * t.val + p.val := by
    show win0_2.index t 0 * 10000 + 1 * p.val = _
    rw [e4]; omega
  have hcol : (((cfg0.win 2).blk t).view.emb (ix2 p q) 1).val = q.val := by
    show win0_2.index t 1 * 64 + 1 * q.val = _
    rw [e5]; omega
  have hidx : (((cfg0.win 2).blk t).view.emb (ix2 p q) : S100000x64.Idx)
      = ix2 (⟨10000 * t.val + p.val, hlt⟩ : Fin 100000) q := funext fun a => Fin.ext (by
    fin_cases a
    · exact hrow
    · exact hcol)
  refine ((block_product_apply _ _ p q).trans ?_).trans
    ((Cert.Products.host128_apply (V c main_arg0) (V c main_arg3) (⟨10000 * t.val + p.val, hlt⟩ : Fin 100000) q).symm.trans
      (congrArg (product V c) hidx.symm))
  refine Finset.sum_congr rfl fun k _ => ?_
  rw [left_block_apply V c t (ix2 p k) (ix2 (⟨10000 * t.val + p.val, hlt⟩ : Fin 100000) k) rfl rfl,
    weight_block_apply V c t (ix2 k q)]

/-- An entry of the output array lies in block t exactly when each coordinate lies in the block's range. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v33).slice (win0_2.rect t)).set ↔ _
  rw [View.set_slice_whole, Rect.mem_set_unit]
  exact Iff.rfl

/-- Every entry lies in the block of the point (row / 10000). -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := block_origin t
  refine ⟨t, flush0_2 t, ?_⟩
  rw [mem_block]
  intro a
  match a with
  | ⟨0, _⟩ =>
    show win0_2.index t 0 * 10000 ≤ (i 0).val ∧ (i 0).val < win0_2.index t 0 * 10000 + 10000
    rw [e4, ht]; omega
  | ⟨1, _⟩ =>
    show win0_2.index t 1 * 64 ≤ (i 1).val ∧ (i 1).val < win0_2.index t 1 * 64 + 64
    rw [e5]; omega

/-- After the call the output array is the host's product of the left array and the weights. -/
theorem output (c : Dev nD) : (dat0 V c).arrAt 2 cfg0.N = product V c :=
  (dat0 V c).arrAt_eq_of_cover 2 (product V c) (fun t _ => flushed_eq V c t) covered

end Cert.KernelIdeal.Linear0

end
-- ==== Proof.LibKeepdims.lean ====
/-
  Two layout facts for a COLUMN, read at an index: an array of `a` numbers cast to an `a × 1` column holds the same
  numbers, and an `a × 1` column broadcast across `b` columns repeats its entry along each row.
-/
import Idealize.ShloMosaic.Lib.ValueLayout
import Idealize.ShloMosaic.Lib.Pipeline.Value

noncomputable section

namespace Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

end
-- ==== Proof.Scale1.lean ====
/-
  Pallas call 1 of the program multiplies every row of an edge-feature array by that edge's normalisation factor:
  the feature array has 1,700,000 rows of 64 numbers, the factors are a column of 1,700,000 numbers, and the call walks
  over 250 blocks of 6,800 rows.  Block t of the output holds, at row p and column q, the product of the feature at
  row 6800·t + p, column q and the factor of row 6800·t + p.  The 250 blocks tile the array, so the whole output is the
  feature array times the factor column repeated along the columns — the same array the host operations
  "broadcast the column to 64 columns, then multiply" produce.
-/
import proofs.«117165_j50242527428955_2_alg».proof.Proof.Gen.KernelIdeal.Frame
import proofs.«117165_j50242527428955_2_alg».proof.Proof.LibKeepdims
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale1

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- One block's arithmetic at row p, column q: the feature times the factor of row p. -/
theorem product_apply (x0 : Vec Ideal S6800x64 .f32) (x1 : Vec Ideal S6800x1 .f32) (p : Fin 6800) (q : Fin 64) :
    k1_pay1 x0 x1 (ix2 p q) = x0 (ix2 p q) * x1 (ix2 p (0 : Fin 1)) := by
  unfold k1_pay1
  rw [mulf_apply, shapeCast_self, shapeCast_self, Keepdims.broadcastTo_a1_ab_apply]

/-- Block t of each of the three arrays starts at row 6800·t and column 0. -/
theorem block_origin : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The feature block of point t, at (p, q), is the feature array at (6800·t + p, q). -/
theorem feature_block_apply (c : Dev nD) (t : Fin cfg1.N) (y : S6800x64.Idx) (k : S1700000x64.Idx)
    (hk0 : (k 0).val = 6800 * t.val + (y 0).val) (hk1 : (k 1).val = (y 1).val) :
    (iblk1 V c 0 t : Vec Ideal S6800x64 .f32) y = (V c main_v40 : S1700000x64.Idx → Elt Ideal .f32) k := by
  obtain ⟨e0, e1, -⟩ := block_origin t
  unfold iblk1
  rw [View.read_apply]
  show V c main_v40 _ = V c main_v40 _
  congr 1
  funext a
  apply Fin.ext
  match a with
  | ⟨0, _⟩ => show win1_0.index t 0 * 6800 + 1 * (y 0).val = (k 0).val; rw [e0, hk0]; omega
  | ⟨1, _⟩ => show win1_0.index t 1 * 64 + 1 * (y 1).val = (k 1).val; rw [e1, hk1]; omega

/-- The factor block of point t, at (p, 0), is the factor column at (6800·t + p, 0). -/
theorem factor_block_apply (c : Dev nD) (t : Fin cfg1.N) (y : S6800x1.Idx) (k : S1700000x1.Idx)
    (hk0 : (k 0).val = 6800 * t.val + (y 0).val) (hk1 : (k 1).val = (y 1).val) :
    (iblk1 V c 1 t : Vec Ideal S6800x1 .f32) y = (V c main_v32 : S1700000x1.Idx → Elt Ideal .f32) k := by
  obtain ⟨-, -, e2, e3, -⟩ := block_origin t
  unfold iblk1
  rw [View.read_apply]
  show V c main_v32 _ = V c main_v32 _
  congr 1
  funext a
  apply Fin.ext
  match a with
  | ⟨0, _⟩ => show win1_1.index t 0 * 6800 + 1 * (y 0).val = (k 0).val; rw [e2, hk0]; omega
  | ⟨1, _⟩ => show win1_1.index t 1 * 1 + 1 * (y 1).val = (k 1).val; rw [e3, hk1]; omega

/-- The whole output: the feature array times the factor column repeated along the 64 columns. -/
abbrev scaled (hb : S1700000x1.BroadcastsInDim S1700000x64 (![0, 1] : Fin 2 → Fin S1700000x64.rank)) (c : Dev nD) :
    FVec Ideal S1700000x64 .f32 :=
  mulf (F := Ideal) (V c main_v40 : FVec Ideal S1700000x64 .f32)
    (broadcastInDim S1700000x64 ![0, 1] hb (V c main_v32 : FVec Ideal S1700000x1 .f32))

/-- What point t writes back is block t of that array. -/
theorem flushed_eq (hb : S1700000x1.BroadcastsInDim S1700000x64 (![0, 1] : Fin 2 → Fin S1700000x64.rank))
    (c : Dev nD) (t : Fin cfg1.N) :
    (dat1 V c).flushed 2 t = ((cfg1.win 2).blk t).view.read (Elt Ideal) (scaled V hb c) := by
  show (cfg1.win 2).cut (grid1.coords t) ((dat1 V c).after 2 t) = _
  rw [after1_2]
  unfold out1_2
  rw [View.canon_unit_zero zero_offsets]
  simp only [View.ld_unit_zero (S := S6800x64) zero_offsets, View.ld_unit_zero (S := S6800x1) zero_offsets]
  obtain ⟨-, -, -, -, e4, e5⟩ := block_origin t
  have ht : t.val < 250 := lt_of_lt_of_eq t.isLt N_1
  funext j
  obtain ⟨p, q, rfl⟩ : ∃ (p : Fin 6800) (q : Fin 64), j = ix2 p q := ⟨j 0, j 1, eq_ix2 j⟩
  have hlt : 6800 * t.val + p.val < 1700000 := by have := p.isLt; omega
  show k1_pay1 (iblk1 V c 0 t) (iblk1 V c 1 t) (ix2 p q) = scaled V hb c (((cfg1.win 2).blk t).view.emb (ix2 p q))
  have hrow : (((cfg1.win 2).blk t).view.emb (ix2 p q) 0).val = 6800 * t.val + p.val := by
    show win1_2.index t 0 * 6800 + 1 * p.val = _
    rw [e4]; omega
  have hcol : (((cfg1.win 2).blk t).view.emb (ix2 p q) 1).val = q.val := by
    show win1_2.index t 1 * 64 + 1 * q.val = _
    rw [e5]; omega
  have hspread : ∀ a : Fin S1700000x1.rank,
      ((ix2 (⟨6800 * t.val + p.val, hlt⟩ : Fin 1700000) (0 : Fin 1) : S1700000x1.Idx) a).val
        = if S1700000x1.size a = 1 then 0
          else ((((cfg1.win 2).blk t).view.emb (ix2 p q)) ((![0, 1] : Fin 2 → Fin S1700000x64.rank) a)).val := by
    intro a
    fin_cases a
    · rw [if_neg (by decide)]; exact hrow.symm
    · rw [if_pos (by decide)]; rfl
  refine (product_apply _ _ p q).trans ?_
  rw [feature_block_apply V c t (ix2 p q) _ hrow hcol,
    factor_block_apply V c t (ix2 p (0 : Fin 1)) (ix2 (⟨6800 * t.val + p.val, hlt⟩ : Fin 1700000) (0 : Fin 1)) rfl rfl,
    ← broadcastInDim_apply (![0, 1] : Fin 2 → Fin S1700000x64.rank) hb (V c main_v32 : FVec Ideal S1700000x1 .f32) _ _ hspread]
  rfl

/-- An entry of the output array lies in block t exactly when each coordinate lies in the block's range. -/
theorem mem_block (t : Fin cfg1.N) (i : S1700000x64.Idx) :
    i ∈ ((cfg1.win 2).blk t).view.set ↔ ∀ a : Fin 2, win1_2.index t a * S6800x64.size a ≤ (i a).val
      ∧ (i a).val < win1_2.index t a * S6800x64.size a + S6800x64.size a := by
  show i ∈ ((View.whole main_v41).slice (win1_2.rect t)).set ↔ _
  rw [View.set_slice_whole, Rect.mem_set_unit]
  exact Iff.rfl

/-- Every entry lies in the block of the point (row / 6800). -/
theorem covered (i : S1700000x64.Idx) :
    ∃ t : Fin cfg1.N, (cfg1.win 2).flush t = true ∧ i ∈ ((cfg1.win 2).blk t).view.set := by
  have hi0 : (i 0).val < 1700000 := (i 0).isLt
  have hi1 : (i 1).val < 64 := (i 1).isLt
  have hN : cfg1.N = 250 := N_1
  obtain ⟨t, ht⟩ : ∃ t : Fin cfg1.N, t.val = (i 0).val / 6800 := ⟨⟨(i 0).val / 6800, by rw [hN]; omega⟩, rfl⟩
  obtain ⟨-, -, -, -, e4, e5⟩ := block_origin t
  refine ⟨t, flush1_2 t, ?_⟩
  rw [mem_block]
  intro a
  match a with
  | ⟨0, _⟩ =>
    show win1_2.index t 0 * 6800 ≤ (i 0).val ∧ (i 0).val < win1_2.index t 0 * 6800 + 6800
    rw [e4, ht]; omega
  | ⟨1, _⟩ =>
    show win1_2.index t 1 * 64 ≤ (i 1).val ∧ (i 1).val < win1_2.index t 1 * 64 + 64
    rw [e5]; omega

/-- After the call the output array is the feature array times the spread factor column. -/
theorem output (hb : S1700000x1.BroadcastsInDim S1700000x64 (![0, 1] : Fin 2 → Fin S1700000x64.rank)) (c : Dev nD) :
    (dat1 V c).arrAt 2 cfg1.N = scaled V hb c :=
  (dat1 V c).arrAt_eq_of_cover 2 (scaled V hb c) (fun t _ => flushed_eq V hb c t) covered

end Cert.KernelIdeal.Scale1

end
-- ==== Proof.Layer1.lean ====
/-
  The first layer.  Pallas call 0 forms x·W1; the host gathers its rows by source node; Pallas call 1 multiplies each
  gathered row by its edge's factor; the host adds the rows up per target node, adds the bias and keeps the positive
  part.  Boundary by boundary, each buffer still needed holds the host program's stage of the same arguments: a
  buffer a segment does not write keeps its contents, a call's output array is the product or the scaled array that the
  call's own module establishes, and a stretch of host operations applies the host program's own operations.
-/
import proofs.«117165_j50242527428955_2_alg».proof.Proof.Gen.KernelIdeal.Frame
import proofs.«117165_j50242527428955_2_alg».proof.Proof.Gen.ReferenceIdeal.Read
import Idealize.ShloMosaic.Lib.StableHlo.Run
import proofs.«117165_j50242527428955_2_alg».proof.Proof.Entry0
import proofs.«117165_j50242527428955_2_alg».proof.Proof.Entry1
import proofs.«117165_j50242527428955_2_alg».proof.Proof.Linear0
import proofs.«117165_j50242527428955_2_alg».proof.Proof.Scale1

set_option maxRecDepth 16384

noncomputable section

namespace Cert.KernelIdeal.Layer1

open Cert.KernelIdeal Cert.KernelIdeal.Gen
open Idealize.ShloMosaic Idealize.ShloMosaic.TcCoe Idealize.SL.Sem

/-- A buffer that no operation of a stretch of host operations writes holds after the stretch what it held before. -/
local macro "kept_through" ops:ident "at" b:ident : term =>
  `(StableHlo.after_of_forall_not_mem (b := Proc.devRef .tc $b) _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

open Cert.KernelIdeal.Entry0
open Cert.KernelIdeal.Entry1

variable (m : (ℓ : Loc nD τ sig) → Buf (Elt Ideal) ℓ) (ρ : Dev nD → PrngReg) (c : Dev nD)

/-! ## Boundary 4: after Pallas call 0 -/

theorem at4_v5 : W4 m ρ c (Proc.devRef .tc main_v5) = Cert.ReferenceIdeal.Read.val_main_v5 (F := Ideal) (m ((c : Thread nD τ).loc main_arg1)) :=
  (W4_of_ne m ρ c main_v5 (by decide)).trans (at3_v5 m ρ c)

theorem at4_v6 : W4 m ρ c (Proc.devRef .tc main_v6) = Cert.ReferenceIdeal.Read.val_main_v6 (F := Ideal) (m ((c : Thread nD τ).loc main_arg1)) :=
  (W4_of_ne m ρ c main_v6 (by decide)).trans (at3_v6 m ρ c)

theorem at4_v32 : W4 m ρ c (Proc.devRef .tc main_v32) = Cert.ReferenceIdeal.Read.val_main_v40 (F := Ideal) (m ((c : Thread nD τ).loc main_arg1)) (m ((c : Thread nD τ).loc main_arg2)) :=
  (W4_of_ne m ρ c main_v32 (by decide)).trans (at3_v32 m ρ c)

theorem at4_arg4 : W4 m ρ c (Proc.devRef .tc main_arg4) = (m ((c : Thread nD τ).loc main_arg4)) :=
  (W4_of_ne m ρ c main_arg4 (by decide)).trans (at3_arg4 m ρ c)

theorem at4_arg5 : W4 m ρ c (Proc.devRef .tc main_arg5) = (m ((c : Thread nD τ).loc main_arg5)) :=
  (W4_of_ne m ρ c main_arg5 (by decide)).trans (at3_arg5 m ρ c)

theorem at4_arg6 : W4 m ρ c (Proc.devRef .tc main_arg6) = (m ((c : Thread nD τ).loc main_arg6)) :=
  (W4_of_ne m ρ c main_arg6 (by decide)).trans (at3_arg6 m ρ c)

theorem at4_arg7 : W4 m ρ c (Proc.devRef .tc main_arg7) = (m ((c : Thread nD τ).loc main_arg7)) :=
  (W4_of_ne m ρ c main_arg7 (by decide)).trans (at3_arg7 m ρ c)

theorem at4_arg8 : W4 m ρ c (Proc.devRef .tc main_arg8) = (m ((c : Thread nD τ).loc main_arg8)) :=
  (W4_of_ne m ρ c main_arg8 (by decide)).trans (at3_arg8 m ρ c)

theorem at4_v33 : W4 m ρ c (Proc.devRef .tc main_v33) = Cert.ReferenceIdeal.Read.val_main_v32 (F := Ideal) (m ((c : Thread nD τ).loc main_arg0)) (m ((c : Thread nD τ).loc main_arg3)) := by
  refine (W4_arr m ρ c 2).trans ((Cert.KernelIdeal.Linear0.output (V3 m ρ) c).trans ?_)
  dsimp only [Cert.KernelIdeal.Linear0.product, V3]
  rw [at3_arg0 m ρ c, at3_arg3 m ρ c]
  rfl

/-! ## Boundary 5: after the next stretch of host operations -/

theorem at5_v32 : W5 m ρ c (Proc.devRef .tc main_v32) = Cert.ReferenceIdeal.Read.val_main_v40 (F := Ideal) (m ((c : Thread nD τ).loc main_arg1)) (m ((c : Thread nD τ).loc main_arg2)) :=
  (kept_through hostOps1 at main_v32 : W5 m ρ c (Proc.devRef .tc main_v32) = W4 m ρ c (Proc.devRef .tc main_v32)).trans (at4_v32 m ρ c)

theorem at5_v5 : W5 m ρ c (Proc.devRef .tc main_v5) = Cert.ReferenceIdeal.Read.val_main_v5 (F := Ideal) (m ((c : Thread nD τ).loc main_arg1)) :=
  (kept_through hostOps1 at main_v5 : W5 m ρ c (Proc.devRef .tc main_v5) = W4 m ρ c (Proc.devRef .tc main_v5)).trans (at4_v5 m ρ c)

theorem at5_v6 : W5 m ρ c (Proc.devRef .tc main_v6) = Cert.ReferenceIdeal.Read.val_main_v6 (F := Ideal) (m ((c : Thread nD τ).loc main_arg1)) :=
  (kept_through hostOps1 at main_v6 : W5 m ρ c (Proc.devRef .tc main_v6) = W4 m ρ c (Proc.devRef .tc main_v6)).trans (at4_v6 m ρ c)

theorem at5_arg4 : W5 m ρ c (Proc.devRef .tc main_arg4) = (m ((c : Thread nD τ).loc main_arg4)) :=
  (kept_through hostOps1 at main_arg4 : W5 m ρ c (Proc.devRef .tc main_arg4) = W4 m ρ c (Proc.devRef .tc main_arg4)).trans (at4_arg4 m ρ c)

theorem at5_arg5 : W5 m ρ c (Proc.devRef .tc main_arg5) = (m ((c : Thread nD τ).loc main_arg5)) :=
  (kept_through hostOps1 at main_arg5 : W5 m ρ c (Proc.devRef .tc main_arg5) = W4 m ρ c (Proc.devRef .tc main_arg5)).trans (at4_arg5 m ρ c)

theorem at5_arg6 : W5 m ρ c (Proc.devRef .tc main_arg6) = (m ((c : Thread nD τ).loc main_arg6)) :=
  (kept_through hostOps1 at main_arg6 : W5 m ρ c (Proc.devRef .tc main_arg6) = W4 m ρ c (Proc.devRef .tc main_arg6)).trans (at4_arg6 m ρ c)

theorem at5_arg7 : W5 m ρ c (Proc.devRef .tc main_arg7) = (m ((c : Thread nD τ).loc main_arg7)) :=
  (kept_through hostOps1 at main_arg7 : W5 m ρ c (Proc.devRef .tc main_arg7) = W4 m ρ c (Proc.devRef .tc main_arg7)).trans (at4_arg7 m ρ c)

theorem at5_arg8 : W5 m ρ c (Proc.devRef .tc main_arg8) = (m ((c : Thread nD τ).loc main_arg8)) :=
  (kept_through hostOps1 at main_arg8 : W5 m ρ c (Proc.devRef .tc main_arg8) = W4 m ρ c (Proc.devRef .tc main_arg8)).trans (at4_arg8 m ρ c)

theorem at5_v40 : W5 m ρ c (Proc.devRef .tc main_v40) = Cert.ReferenceIdeal.Read.val_main_v39 (F := Ideal) (m ((c : Thread nD τ).loc main_arg0)) (m ((c : Thread nD τ).loc main_arg1)) (m ((c : Thread nD τ).loc main_arg3)) := by
  show StableHlo.after hostOps1 (W4 m ρ c) (Proc.devRef .tc main_v40) = _
  after_results
  rw [at4_v33 m ρ c, at4_v5 m ρ c]
  rfl

/-! ## Boundary 6: after Pallas call 1 -/

theorem at6_v5 : W6 m ρ c (Proc.devRef .tc main_v5) = Cert.ReferenceIdeal.Read.val_main_v5 (F := Ideal) (m ((c : Thread nD τ).loc main_arg1)) :=
  (W6_of_ne m ρ c main_v5 (by decide)).trans (at5_v5 m ρ c)

theorem at6_v6 : W6 m ρ c (Proc.devRef .tc main_v6) = Cert.ReferenceIdeal.Read.val_main_v6 (F := Ideal) (m ((c : Thread nD τ).loc main_arg1)) :=
  (W6_of_ne m ρ c main_v6 (by decide)).trans (at5_v6 m ρ c)

theorem at6_v32 : W6 m ρ c (Proc.devRef .tc main_v32) = Cert.ReferenceIdeal.Read.val_main_v40 (F := Ideal) (m ((c : Thread nD τ).loc main_arg1)) (m ((c : Thread nD τ).loc main_arg2)) :=
  ((W6_arr m ρ c 1).trans (((dat1 (V5 m ρ) c).arrAt_in 1 rfl _).trans (A_eq1 (V5 m ρ) c 1))).trans (at5_v32 m ρ c)

theorem at6_arg4 : W6 m ρ c (Proc.devRef .tc main_arg4) = (m ((c : Thread nD τ).loc main_arg4)) :=
  (W6_of_ne m ρ c main_arg4 (by decide)).trans (at5_arg4 m ρ c)

theorem at6_arg5 : W6 m ρ c (Proc.devRef .tc main_arg5) = (m ((c : Thread nD τ).loc main_arg5)) :=
  (W6_of_ne m ρ c main_arg5 (by decide)).trans (at5_arg5 m ρ c)

theorem at6_arg6 : W6 m ρ c (Proc.devRef .tc main_arg6) = (m ((c : Thread nD τ).loc main_arg6)) :=
  (W6_of_ne m ρ c main_arg6 (by decide)).trans (at5_arg6 m ρ c)

theorem at6_arg7 : W6 m ρ c (Proc.devRef .tc main_arg7) = (m ((c : Thread nD τ).loc main_arg7)) :=
  (W6_of_ne m ρ c main_arg7 (by decide)).trans (at5_arg7 m ρ c)

theorem at6_arg8 : W6 m ρ c (Proc.devRef .tc main_arg8) = (m ((c : Thread nD τ).loc main_arg8)) :=
  (W6_of_ne m ρ c main_arg8 (by decide)).trans (at5_arg8 m ρ c)

theorem at6_v41 : W6 m ρ c (Proc.devRef .tc main_v41) = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Cert.KernelIdeal.Scale1.output (V5 m ρ) (by decide) c).trans ?_)
  dsimp only [Cert.KernelIdeal.Scale1.scaled, V5]
  rw [at5_v40 m ρ c, at5_v32 m ρ c]
  rfl

/-! ## Boundary 7: after the next stretch of host operations -/

theorem at7_v5 : W7 m ρ c (Proc.devRef .tc main_v5) = Cert.ReferenceIdeal.Read.val_main_v5 (F := Ideal) (m ((c : Thread nD τ).loc main_arg1)) :=
  (kept_through hostOps2 at main_v5 : W7 m ρ c (Proc.devRef .tc main_v5) = W6 m ρ c (Proc.devRef .tc main_v5)).trans (at6_v5 m ρ c)

theorem at7_v6 : W7 m ρ c (Proc.devRef .tc main_v6) = Cert.ReferenceIdeal.Read.val_main_v6 (F := Ideal) (m ((c : Thread nD τ).loc main_arg1)) :=
  (kept_through hostOps2 at main_v6 : W7 m ρ c (Proc.devRef .tc main_v6) = W6 m ρ c (Proc.devRef .tc main_v6)).trans (at6_v6 m ρ c)

theorem at7_v32 : W7 m ρ c (Proc.devRef .tc main_v32) = Cert.ReferenceIdeal.Read.val_main_v40 (F := Ideal) (m ((c : Thread nD τ).loc main_arg1)) (m ((c : Thread nD τ).loc main_arg2)) :=
  (kept_through hostOps2 at main_v32 : W7 m ρ c (Proc.devRef .tc main_v32) = W6 m ρ c (Proc.devRef .tc main_v32)).trans (at6_v32 m ρ c)

theorem at7_arg5 : W7 m ρ c (Proc.devRef .tc main_arg5) = (m ((c : Thread nD τ).loc main_arg5)) :=
  (kept_through hostOps2 at main_arg5 : W7 m ρ c (Proc.devRef .tc main_arg5) = W6 m ρ c (Proc.devRef .tc main_arg5)).trans (at6_arg5 m ρ c)

theorem at7_arg6 : W7 m ρ c (Proc.devRef .tc main_arg6) = (m ((c : Thread nD τ).loc main_arg6)) :=
  (kept_through hostOps2 at main_arg6 : W7 m ρ c (Proc.devRef .tc main_arg6) = W6 m ρ c (Proc.devRef .tc main_arg6)).trans (at6_arg6 m ρ c)

theorem at7_arg7 : W7 m ρ c (Proc.devRef .tc main_arg7) = (m ((c : Thread nD τ).loc main_arg7)) :=
  (kept_through hostOps2 at main_arg7 : W7 m ρ c (Proc.devRef .tc main_arg7) = W6 m ρ c (Proc.devRef .tc main_arg7)).trans (at6_arg7 m ρ c)

theorem at7_arg8 : W7 m ρ c (Proc.devRef .tc main_arg8) = (m ((c : Thread nD τ).loc main_arg8)) :=
  (kept_through hostOps2 at main_arg8 : W7 m ρ c (Proc.devRef .tc main_arg8) = W6 m ρ c (Proc.devRef .tc main_arg8)).trans (at6_arg8 m ρ c)

theorem at7_v49 : W7 m ρ c (Proc.devRef .tc main_v49) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v49) = _
  after_results
  rw [at6_v6 m ρ c, at6_v41 m ρ c, at6_arg4 m ρ c]
  rfl

end Cert.KernelIdeal.Layer1

end
-- ==== Proof.Linear2.lean ====
/-
  Pallas call 2 of the program multiplies a 100,000 × 64 array by a 64 × 32 weight array, ten blocks of 10,000
  rows at a time; the weight block is the whole weight array at every point.  Reading the floats as exact numbers the
  cast to bfloat16 changes nothing and the accumulator starts at zero, so block t of the output holds, at row p and
  column q, the sum over k of the left array at (10000·t + p, k) times the weight at (k, q).  The ten blocks tile the
  output, so the whole output array is the host's matrix product of the two arrays.
-/
import proofs.«117165_j50242527428955_2_alg».proof.Proof.Gen.KernelIdeal.Frame
import proofs.«117165_j50242527428955_2_alg».proof.Proof.Products
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Linear2

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- One block's arithmetic at row p, column q: the plain sum of products. -/
theorem block_product_apply (x0 : Vec Ideal S10000x64 .f32) (x1 : Vec Ideal S64x32 .f32) (p : Fin 10000) (q : Fin 32) :
    k2_pay1 x0 x1 (ix2 p q) = ∑ k : Fin 64, x0 (ix2 p k) * x1 (ix2 k q) := by
  unfold k2_pay1
  refine (Cert.Products.block64_apply _ _ p q).trans ?_
  simp only [shapeCast_self, truncf_apply]

/-- Block t of the left array and of the output starts at row 10000·t, column 0; the weight block is always block (0, 0). -/
theorem block_origin : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left block of point t, at (p, k), is the left array at (10000·t + p, k). -/
theorem left_block_apply (c : Dev nD) (t : Fin cfg2.N) (y : S10000x64.Idx) (k : S100000x64.Idx)
    (hk0 : (k 0).val = 10000 * t.val + (y 0).val) (hk1 : (k 1).val = (y 1).val) :
    (iblk2 V c 0 t : Vec Ideal S10000x64 .f32) y = (V c main_v49 : S100000x64.Idx → Elt Ideal .f32) k := by
  obtain ⟨e0, e1, -⟩ := block_origin t
  unfold iblk2
  rw [View.read_apply]
  show V c main_v49 _ = V c main_v49 _
  congr 1
  funext a
  apply Fin.ext
  match a with
  | ⟨0, _⟩ => show win2_0.index t 0 * 10000 + 1 * (y 0).val = (k 0).val; rw [e0, hk0]; omega
  | ⟨1, _⟩ => show win2_0.index t 1 * 64 + 1 * (y 1).val = (k 1).val; rw [e1, hk1]; omega

/-- The weight block of any point is the weight array. -/
theorem weight_block_apply (c : Dev nD) (t : Fin cfg2.N) (y : S64x32.Idx) :
    (iblk2 V c 1 t : Vec Ideal S64x32 .f32) y = (V c main_arg5 : S64x32.Idx → Elt Ideal .f32) y := by
  obtain ⟨-, -, e2, e3, -⟩ := block_origin t
  unfold iblk2
  rw [View.read_apply]
  show V c main_arg5 _ = V c main_arg5 _
  congr 1
  funext a
  apply Fin.ext
  match a with
  | ⟨0, _⟩ => show win2_1.index t 0 * 64 + 1 * (y 0).val = (y 0).val; rw [e2]; omega
  | ⟨1, _⟩ => show win2_1.index t 1 * 32 + 1 * (y 1).val = (y 1).val; rw [e3]; omega

/-- The whole output: the host's product of the left array and the weights. -/
abbrev product (c : Dev nD) : FVec Ideal S100000x32 .f32 :=
  Host.dotGeneral (F := Ideal) (φ₁ := .f32) (φ₂ := .f32) Cert.ReferenceIdeal.dot_S100000x64_S64x32_S100000x32_1_0_0_1_n_n none
    (V c main_v49) (V c main_arg5)

/-- What point t writes back is block t of that product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero zero_offsets]
  simp only [View.ld_unit_zero (S := S10000x64) zero_offsets, View.ld_unit_zero (S := S64x32) zero_offsets]
  obtain ⟨-, -, -, -, e4, e5⟩ := block_origin t
  have ht : t.val < 10 := lt_of_lt_of_eq t.isLt N_2
  funext j
  obtain ⟨p, q, rfl⟩ : ∃ (p : Fin 10000) (q : Fin 32), j = ix2 p q := ⟨j 0, j 1, eq_ix2 j⟩
  have hlt : 10000 * t.val + p.val < 100000 := by have := p.isLt; omega
  show k2_pay1 (iblk2 V c 0 t) (iblk2 V c 1 t) (ix2 p q) = product V c (((cfg2.win 2).blk t).view.emb (ix2 p q))
  have hrow : (((cfg2.win 2).blk t).view.emb (ix2 p q) 0).val = 10000 * t.val + p.val := by
    show win2_2.index t 0 * 10000 + 1 * p.val = _
    rw [e4]; omega
  have hcol : (((cfg2.win 2).blk t).view.emb (ix2 p q) 1).val = q.val := by
    show win2_2.index t 1 * 32 + 1 * q.val = _
    rw [e5]; omega
  have hidx : (((cfg2.win 2).blk t).view.emb (ix2 p q) : S100000x32.Idx)
      = ix2 (⟨10000 * t.val + p.val, hlt⟩ : Fin 100000) q := funext fun a => Fin.ext (by
    fin_cases a
    · exact hrow
    · exact hcol)
  refine ((block_product_apply _ _ p q).trans ?_).trans
    ((Cert.Products.host64_apply (V c main_v49) (V c main_arg5) (⟨10000 * t.val + p.val, hlt⟩ : Fin 100000) q).symm.trans
      (congrArg (product V c) hidx.symm))
  refine Finset.sum_congr rfl fun k _ => ?_
  rw [left_block_apply V c t (ix2 p k) (ix2 (⟨10000 * t.val + p.val, hlt⟩ : Fin 100000) k) rfl rfl,
    weight_block_apply V c t (ix2 k q)]

/-- An entry of the output array lies in block t exactly when each coordinate lies in the block's range. -/
theorem mem_block (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v50).slice (win2_2.rect t)).set ↔ _
  rw [View.set_slice_whole, Rect.mem_set_unit]
  exact Iff.rfl

/-- Every entry lies in the block of the point (row / 10000). -/
theorem covered (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := block_origin t
  refine ⟨t, flush2_2 t, ?_⟩
  rw [mem_block]
  intro a
  match a with
  | ⟨0, _⟩ =>
    show win2_2.index t 0 * 10000 ≤ (i 0).val ∧ (i 0).val < win2_2.index t 0 * 10000 + 10000
    rw [e4, ht]; omega
  | ⟨1, _⟩ =>
    show win2_2.index t 1 * 32 ≤ (i 1).val ∧ (i 1).val < win2_2.index t 1 * 32 + 32
    rw [e5]; omega

/-- After the call the output array is the host's product of the left array and the weights. -/
theorem output (c : Dev nD) : (dat2 V c).arrAt 2 cfg2.N = product V c :=
  (dat2 V c).arrAt_eq_of_cover 2 (product V c) (fun t _ => flushed_eq V c t) covered

end Cert.KernelIdeal.Linear2

end
-- ==== Proof.Scale3.lean ====
/-
  Pallas call 3 of the program multiplies every row of an edge-feature array by that edge's normalisation factor:
  the feature array has 1,700,000 rows of 32 numbers, the factors are a column of 1,700,000 numbers, and the call walks
  over 250 blocks of 6,800 rows.  Block t of the output holds, at row p and column q, the product of the feature at
  row 6800·t + p, column q and the factor of row 6800·t + p.  The 250 blocks tile the array, so the whole output is the
  feature array times the factor column repeated along the columns — the same array the host operations
  "broadcast the column to 32 columns, then multiply" produce.
-/
import proofs.«117165_j50242527428955_2_alg».proof.Proof.Gen.KernelIdeal.Frame
import proofs.«117165_j50242527428955_2_alg».proof.Proof.LibKeepdims
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale3

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- One block's arithmetic at row p, column q: the feature times the factor of row p. -/
theorem product_apply (x0 : Vec Ideal S6800x32 .f32) (x1 : Vec Ideal S6800x1 .f32) (p : Fin 6800) (q : Fin 32) :
    k3_pay1 x0 x1 (ix2 p q) = x0 (ix2 p q) * x1 (ix2 p (0 : Fin 1)) := by
  unfold k3_pay1
  rw [mulf_apply, shapeCast_self, shapeCast_self, Keepdims.broadcastTo_a1_ab_apply]

/-- Block t of each of the three arrays starts at row 6800·t and column 0. -/
theorem block_origin : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The feature block of point t, at (p, q), is the feature array at (6800·t + p, q). -/
theorem feature_block_apply (c : Dev nD) (t : Fin cfg3.N) (y : S6800x32.Idx) (k : S1700000x32.Idx)
    (hk0 : (k 0).val = 6800 * t.val + (y 0).val) (hk1 : (k 1).val = (y 1).val) :
    (iblk3 V c 0 t : Vec Ideal S6800x32 .f32) y = (V c main_v57 : S1700000x32.Idx → Elt Ideal .f32) k := by
  obtain ⟨e0, e1, -⟩ := block_origin t
  unfold iblk3
  rw [View.read_apply]
  show V c main_v57 _ = V c main_v57 _
  congr 1
  funext a
  apply Fin.ext
  match a with
  | ⟨0, _⟩ => show win3_0.index t 0 * 6800 + 1 * (y 0).val = (k 0).val; rw [e0, hk0]; omega
  | ⟨1, _⟩ => show win3_0.index t 1 * 32 + 1 * (y 1).val = (k 1).val; rw [e1, hk1]; omega

/-- The factor block of point t, at (p, 0), is the factor column at (6800·t + p, 0). -/
theorem factor_block_apply (c : Dev nD) (t : Fin cfg3.N) (y : S6800x1.Idx) (k : S1700000x1.Idx)
    (hk0 : (k 0).val = 6800 * t.val + (y 0).val) (hk1 : (k 1).val = (y 1).val) :
    (iblk3 V c 1 t : Vec Ideal S6800x1 .f32) y = (V c main_v32 : S1700000x1.Idx → Elt Ideal .f32) k := by
  obtain ⟨-, -, e2, e3, -⟩ := block_origin t
  unfold iblk3
  rw [View.read_apply]
  show V c main_v32 _ = V c main_v32 _
  congr 1
  funext a
  apply Fin.ext
  match a with
  | ⟨0, _⟩ => show win3_1.index t 0 * 6800 + 1 * (y 0).val = (k 0).val; rw [e2, hk0]; omega
  | ⟨1, _⟩ => show win3_1.index t 1 * 1 + 1 * (y 1).val = (k 1).val; rw [e3, hk1]; omega

/-- The whole output: the feature array times the factor column repeated along the 32 columns. -/
abbrev scaled (hb : S1700000x1.BroadcastsInDim S1700000x32 (![0, 1] : Fin 2 → Fin S1700000x32.rank)) (c : Dev nD) :
    FVec Ideal S1700000x32 .f32 :=
  mulf (F := Ideal) (V c main_v57 : FVec Ideal S1700000x32 .f32)
    (broadcastInDim S1700000x32 ![0, 1] hb (V c main_v32 : FVec Ideal S1700000x1 .f32))

/-- What point t writes back is block t of that array. -/
theorem flushed_eq (hb : S1700000x1.BroadcastsInDim S1700000x32 (![0, 1] : Fin 2 → Fin S1700000x32.rank))
    (c : Dev nD) (t : Fin cfg3.N) :
    (dat3 V c).flushed 2 t = ((cfg3.win 2).blk t).view.read (Elt Ideal) (scaled V hb c) := by
  show (cfg3.win 2).cut (grid3.coords t) ((dat3 V c).after 2 t) = _
  rw [after3_2]
  unfold out3_2
  rw [View.canon_unit_zero zero_offsets]
  simp only [View.ld_unit_zero (S := S6800x32) zero_offsets, View.ld_unit_zero (S := S6800x1) zero_offsets]
  obtain ⟨-, -, -, -, e4, e5⟩ := block_origin t
  have ht : t.val < 250 := lt_of_lt_of_eq t.isLt N_3
  funext j
  obtain ⟨p, q, rfl⟩ : ∃ (p : Fin 6800) (q : Fin 32), j = ix2 p q := ⟨j 0, j 1, eq_ix2 j⟩
  have hlt : 6800 * t.val + p.val < 1700000 := by have := p.isLt; omega
  show k3_pay1 (iblk3 V c 0 t) (iblk3 V c 1 t) (ix2 p q) = scaled V hb c (((cfg3.win 2).blk t).view.emb (ix2 p q))
  have hrow : (((cfg3.win 2).blk t).view.emb (ix2 p q) 0).val = 6800 * t.val + p.val := by
    show win3_2.index t 0 * 6800 + 1 * p.val = _
    rw [e4]; omega
  have hcol : (((cfg3.win 2).blk t).view.emb (ix2 p q) 1).val = q.val := by
    show win3_2.index t 1 * 32 + 1 * q.val = _
    rw [e5]; omega
  have hspread : ∀ a : Fin S1700000x1.rank,
      ((ix2 (⟨6800 * t.val + p.val, hlt⟩ : Fin 1700000) (0 : Fin 1) : S1700000x1.Idx) a).val
        = if S1700000x1.size a = 1 then 0
          else ((((cfg3.win 2).blk t).view.emb (ix2 p q)) ((![0, 1] : Fin 2 → Fin S1700000x32.rank) a)).val := by
    intro a
    fin_cases a
    · rw [if_neg (by decide)]; exact hrow.symm
    · rw [if_pos (by decide)]; rfl
  refine (product_apply _ _ p q).trans ?_
  rw [feature_block_apply V c t (ix2 p q) _ hrow hcol,
    factor_block_apply V c t (ix2 p (0 : Fin 1)) (ix2 (⟨6800 * t.val + p.val, hlt⟩ : Fin 1700000) (0 : Fin 1)) rfl rfl,
    ← broadcastInDim_apply (![0, 1] : Fin 2 → Fin S1700000x32.rank) hb (V c main_v32 : FVec Ideal S1700000x1 .f32) _ _ hspread]
  rfl

/-- An entry of the output array lies in block t exactly when each coordinate lies in the block's range. -/
theorem mem_block (t : Fin cfg3.N) (i : S1700000x32.Idx) :
    i ∈ ((cfg3.win 2).blk t).view.set ↔ ∀ a : Fin 2, win3_2.index t a * S6800x32.size a ≤ (i a).val
      ∧ (i a).val < win3_2.index t a * S6800x32.size a + S6800x32.size a := by
  show i ∈ ((View.whole main_v58).slice (win3_2.rect t)).set ↔ _
  rw [View.set_slice_whole, Rect.mem_set_unit]
  exact Iff.rfl

/-- Every entry lies in the block of the point (row / 6800). -/
theorem covered (i : S1700000x32.Idx) :
    ∃ t : Fin cfg3.N, (cfg3.win 2).flush t = true ∧ i ∈ ((cfg3.win 2).blk t).view.set := by
  have hi0 : (i 0).val < 1700000 := (i 0).isLt
  have hi1 : (i 1).val < 32 := (i 1).isLt
  have hN : cfg3.N = 250 := N_3
  obtain ⟨t, ht⟩ : ∃ t : Fin cfg3.N, t.val = (i 0).val / 6800 := ⟨⟨(i 0).val / 6800, by rw [hN]; omega⟩, rfl⟩
  obtain ⟨-, -, -, -, e4, e5⟩ := block_origin t
  refine ⟨t, flush3_2 t, ?_⟩
  rw [mem_block]
  intro a
  match a with
  | ⟨0, _⟩ =>
    show win3_2.index t 0 * 6800 ≤ (i 0).val ∧ (i 0).val < win3_2.index t 0 * 6800 + 6800
    rw [e4, ht]; omega
  | ⟨1, _⟩ =>
    show win3_2.index t 1 * 32 ≤ (i 1).val ∧ (i 1).val < win3_2.index t 1 * 32 + 32
    rw [e5]; omega

/-- After the call the output array is the feature array times the spread factor column. -/
theorem output (hb : S1700000x1.BroadcastsInDim S1700000x32 (![0, 1] : Fin 2 → Fin S1700000x32.rank)) (c : Dev nD) :
    (dat3 V c).arrAt 2 cfg3.N = scaled V hb c :=
  (dat3 V c).arrAt_eq_of_cover 2 (scaled V hb c) (fun t _ => flushed_eq V hb c t) covered

end Cert.KernelIdeal.Scale3

end
-- ==== Proof.LayerMu.lean ====
/-
  The second layer's first head.  Pallas call 2 forms h·W_mu, the host gathers by source, Pallas call 3 scales by the
  same factor column, and the host adds up per target and adds b_mu: the program's first result.  The host program
  recomputes sources, targets and factors for every layer; those recomputations are the same stages as the first
  layer's, so the buffers the Pallas program computed once serve again.
-/
import proofs.«117165_j50242527428955_2_alg».proof.Proof.Gen.KernelIdeal.Frame
import proofs.«117165_j50242527428955_2_alg».proof.Proof.Gen.ReferenceIdeal.Read
import Idealize.ShloMosaic.Lib.StableHlo.Run
import proofs.«117165_j50242527428955_2_alg».proof.Proof.Entry0
import proofs.«117165_j50242527428955_2_alg».proof.Proof.Entry1
import proofs.«117165_j50242527428955_2_alg».proof.Proof.Layer1
import proofs.«117165_j50242527428955_2_alg».proof.Proof.Linear2
import proofs.«117165_j50242527428955_2_alg».proof.Proof.Scale3

set_option maxRecDepth 16384

noncomputable section

namespace Cert.KernelIdeal.LayerMu

open Cert.KernelIdeal Cert.KernelIdeal.Gen
open Idealize.ShloMosaic Idealize.ShloMosaic.TcCoe Idealize.SL.Sem

/-- A buffer that no operation of a stretch of host operations writes holds after the stretch what it held before. -/
local macro "kept_through" ops:ident "at" b:ident : term =>
  `(StableHlo.after_of_forall_not_mem (b := Proc.devRef .tc $b) _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

open Cert.KernelIdeal.Entry0
open Cert.KernelIdeal.Entry1
open Cert.KernelIdeal.Layer1

variable (m : (ℓ : Loc nD τ sig) → Buf (Elt Ideal) ℓ) (ρ : Dev nD → PrngReg) (c : Dev nD)

/-! ## Boundary 8: after Pallas call 2 -/

theorem at8_v49 : W8 m ρ c (Proc.devRef .tc main_v49) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ((W8_arr m ρ c 0).trans (((dat2 (V7 m ρ) c).arrAt_in 0 rfl _).trans (A_eq2 (V7 m ρ) c 0))).trans (at7_v49 m ρ c)

theorem at8_v5 : W8 m ρ c (Proc.devRef .tc main_v5) = Cert.ReferenceIdeal.Read.val_main_v5 (F := Ideal) (m ((c : Thread nD τ).loc main_arg1)) :=
  (W8_of_ne m ρ c main_v5 (by decide)).trans (at7_v5 m ρ c)

theorem at8_v6 : W8 m ρ c (Proc.devRef .tc main_v6) = Cert.ReferenceIdeal.Read.val_main_v6 (F := Ideal) (m ((c : Thread nD τ).loc main_arg1)) :=
  (W8_of_ne m ρ c main_v6 (by decide)).trans (at7_v6 m ρ c)

theorem at8_v32 : W8 m ρ c (Proc.devRef .tc main_v32) = Cert.ReferenceIdeal.Read.val_main_v40 (F := Ideal) (m ((c : Thread nD τ).loc main_arg1)) (m ((c : Thread nD τ).loc main_arg2)) :=
  (W8_of_ne m ρ c main_v32 (by decide)).trans (at7_v32 m ρ c)

theorem at8_arg6 : W8 m ρ c (Proc.devRef .tc main_arg6) = (m ((c : Thread nD τ).loc main_arg6)) :=
  (W8_of_ne m ρ c main_arg6 (by decide)).trans (at7_arg6 m ρ c)

theorem at8_arg7 : W8 m ρ c (Proc.devRef .tc main_arg7) = (m ((c : Thread nD τ).loc main_arg7)) :=
  (W8_of_ne m ρ c main_arg7 (by decide)).trans (at7_arg7 m ρ c)

theorem at8_arg8 : W8 m ρ c (Proc.devRef .tc main_arg8) = (m ((c : Thread nD τ).loc main_arg8)) :=
  (W8_of_ne m ρ c main_arg8 (by decide)).trans (at7_arg8 m ρ c)

theorem at8_v50 : W8 m ρ c (Proc.devRef .tc main_v50) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((Cert.KernelIdeal.Linear2.output (V7 m ρ) c).trans ?_)
  dsimp only [Cert.KernelIdeal.Linear2.product, V7]
  rw [at7_v49 m ρ c, at7_arg5 m ρ c]
  rfl

/-! ## Boundary 9: after the next stretch of host operations -/

theorem at9_v32 : W9 m ρ c (Proc.devRef .tc main_v32) = Cert.ReferenceIdeal.Read.val_main_v40 (F := Ideal) (m ((c : Thread nD τ).loc main_arg1)) (m ((c : Thread nD τ).loc main_arg2)) :=
  (kept_through hostOps3 at main_v32 : W9 m ρ c (Proc.devRef .tc main_v32) = W8 m ρ c (Proc.devRef .tc main_v32)).trans (at8_v32 m ρ c)

theorem at9_v49 : W9 m ρ c (Proc.devRef .tc main_v49) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (kept_through hostOps3 at main_v49 : W9 m ρ c (Proc.devRef .tc main_v49) = W8 m ρ c (Proc.devRef .tc main_v49)).trans (at8_v49 m ρ c)

theorem at9_v5 : W9 m ρ c (Proc.devRef .tc main_v5) = Cert.ReferenceIdeal.Read.val_main_v5 (F := Ideal) (m ((c : Thread nD τ).loc main_arg1)) :=
  (kept_through hostOps3 at main_v5 : W9 m ρ c (Proc.devRef .tc main_v5) = W8 m ρ c (Proc.devRef .tc main_v5)).trans (at8_v5 m ρ c)

theorem at9_v6 : W9 m ρ c (Proc.devRef .tc main_v6) = Cert.ReferenceIdeal.Read.val_main_v6 (F := Ideal) (m ((c : Thread nD τ).loc main_arg1)) :=
  (kept_through hostOps3 at main_v6 : W9 m ρ c (Proc.devRef .tc main_v6) = W8 m ρ c (Proc.devRef .tc main_v6)).trans (at8_v6 m ρ c)

theorem at9_arg6 : W9 m ρ c (Proc.devRef .tc main_arg6) = (m ((c : Thread nD τ).loc main_arg6)) :=
  (kept_through hostOps3 at main_arg6 : W9 m ρ c (Proc.devRef .tc main_arg6) = W8 m ρ c (Proc.devRef .tc main_arg6)).trans (at8_arg6 m ρ c)

theorem at9_arg7 : W9 m ρ c (Proc.devRef .tc main_arg7) = (m ((c : Thread nD τ).loc main_arg7)) :=
  (kept_through hostOps3 at main_arg7 : W9 m ρ c (Proc.devRef .tc main_arg7) = W8 m ρ c (Proc.devRef .tc main_arg7)).trans (at8_arg7 m ρ c)

theorem at9_arg8 : W9 m ρ c (Proc.devRef .tc main_arg8) = (m ((c : Thread nD τ).loc main_arg8)) :=
  (kept_through hostOps3 at main_arg8 : W9 m ρ c (Proc.devRef .tc main_arg8) = W8 m ρ c (Proc.devRef .tc main_arg8)).trans (at8_arg8 m ρ c)

theorem at9_v57 : W9 m ρ c (Proc.devRef .tc main_v57) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W8 m ρ c) (Proc.devRef .tc main_v57) = _
  after_results
  rw [at8_v50 m ρ c, at8_v5 m ρ c]
  rfl

/-! ## Boundary 10: after Pallas call 3 -/

theorem at10_v32 : W10 m ρ c (Proc.devRef .tc main_v32) = Cert.ReferenceIdeal.Read.val_main_v40 (F := Ideal) (m ((c : Thread nD τ).loc main_arg1)) (m ((c : Thread nD τ).loc main_arg2)) :=
  ((W10_arr m ρ c 1).trans (((dat3 (V9 m ρ) c).arrAt_in 1 rfl _).trans (A_eq3 (V9 m ρ) c 1))).trans (at9_v32 m ρ c)

theorem at10_v49 : W10 m ρ c (Proc.devRef .tc main_v49) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W10_of_ne m ρ c main_v49 (by decide)).trans (at9_v49 m ρ c)

theorem at10_v5 : W10 m ρ c (Proc.devRef .tc main_v5) = Cert.ReferenceIdeal.Read.val_main_v5 (F := Ideal) (m ((c : Thread nD τ).loc main_arg1)) :=
  (W10_of_ne m ρ c main_v5 (by decide)).trans (at9_v5 m ρ c)

theorem at10_v6 : W10 m ρ c (Proc.devRef .tc main_v6) = Cert.ReferenceIdeal.Read.val_main_v6 (F := Ideal) (m ((c : Thread nD τ).loc main_arg1)) :=
  (W10_of_ne m ρ c main_v6 (by decide)).trans (at9_v6 m ρ c)

theorem at10_arg6 : W10 m ρ c (Proc.devRef .tc main_arg6) = (m ((c : Thread nD τ).loc main_arg6)) :=
  (W10_of_ne m ρ c main_arg6 (by decide)).trans (at9_arg6 m ρ c)

theorem at10_arg7 : W10 m ρ c (Proc.devRef .tc main_arg7) = (m ((c : Thread nD τ).loc main_arg7)) :=
  (W10_of_ne m ρ c main_arg7 (by decide)).trans (at9_arg7 m ρ c)

theorem at10_arg8 : W10 m ρ c (Proc.devRef .tc main_arg8) = (m ((c : Thread nD τ).loc main_arg8)) :=
  (W10_of_ne m ρ c main_arg8 (by decide)).trans (at9_arg8 m ρ c)

theorem at10_v58 : W10 m ρ c (Proc.devRef .tc main_v58) = Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 2).trans ((Cert.KernelIdeal.Scale3.output (V9 m ρ) (by decide) c).trans ?_)
  dsimp only [Cert.KernelIdeal.Scale3.scaled, V9]
  rw [at9_v57 m ρ c, at9_v32 m ρ c]
  rfl

/-! ## Boundary 11: after the next stretch of host operations -/

theorem at11_v49 : W11 m ρ c (Proc.devRef .tc main_v49) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (kept_through hostOps4 at main_v49 : W11 m ρ c (Proc.devRef .tc main_v49) = W10 m ρ c (Proc.devRef .tc main_v49)).trans (at10_v49 m ρ c)

theorem at11_v5 : W11 m ρ c (Proc.devRef .tc main_v5) = Cert.ReferenceIdeal.Read.val_main_v5 (F := Ideal) (m ((c : Thread nD τ).loc main_arg1)) :=
  (kept_through hostOps4 at main_v5 : W11 m ρ c (Proc.devRef .tc main_v5) = W10 m ρ c (Proc.devRef .tc main_v5)).trans (at10_v5 m ρ c)

theorem at11_v6 : W11 m ρ c (Proc.devRef .tc main_v6) = Cert.ReferenceIdeal.Read.val_main_v6 (F := Ideal) (m ((c : Thread nD τ).loc main_arg1)) :=
  (kept_through hostOps4 at main_v6 : W11 m ρ c (Proc.devRef .tc main_v6) = W10 m ρ c (Proc.devRef .tc main_v6)).trans (at10_v6 m ρ c)

theorem at11_v32 : W11 m ρ c (Proc.devRef .tc main_v32) = Cert.ReferenceIdeal.Read.val_main_v40 (F := Ideal) (m ((c : Thread nD τ).loc main_arg1)) (m ((c : Thread nD τ).loc main_arg2)) :=
  (kept_through hostOps4 at main_v32 : W11 m ρ c (Proc.devRef .tc main_v32) = W10 m ρ c (Proc.devRef .tc main_v32)).trans (at10_v32 m ρ c)

theorem at11_arg7 : W11 m ρ c (Proc.devRef .tc main_arg7) = (m ((c : Thread nD τ).loc main_arg7)) :=
  (kept_through hostOps4 at main_arg7 : W11 m ρ c (Proc.devRef .tc main_arg7) = W10 m ρ c (Proc.devRef .tc main_arg7)).trans (at10_arg7 m ρ c)

theorem at11_arg8 : W11 m ρ c (Proc.devRef .tc main_arg8) = (m ((c : Thread nD τ).loc main_arg8)) :=
  (kept_through hostOps4 at main_arg8 : W11 m ρ c (Proc.devRef .tc main_arg8) = W10 m ρ c (Proc.devRef .tc main_arg8)).trans (at10_arg8 m ρ c)

theorem at11_v64 : W11 m ρ c (Proc.devRef .tc main_v64) = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W10 m ρ c) (Proc.devRef .tc main_v64) = _
  after_results
  rw [at10_v6 m ρ c, at10_v58 m ρ c, at10_arg6 m ρ c]
  rfl

end Cert.KernelIdeal.LayerMu

end
-- ==== Proof.Linear4.lean ====
/-
  Pallas call 4 of the program multiplies a 100,000 × 64 array by a 64 × 32 weight array, ten blocks of 10,000
  rows at a time; the weight block is the whole weight array at every point.  Reading the floats as exact numbers the
  cast to bfloat16 changes nothing and the accumulator starts at zero, so block t of the output holds, at row p and
  column q, the sum over k of the left array at (10000·t + p, k) times the weight at (k, q).  The ten blocks tile the
  output, so the whole output array is the host's matrix product of the two arrays.
-/
import proofs.«117165_j50242527428955_2_alg».proof.Proof.Gen.KernelIdeal.Frame
import proofs.«117165_j50242527428955_2_alg».proof.Proof.Products
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Linear4

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- One block's arithmetic at row p, column q: the plain sum of products. -/
theorem block_product_apply (x0 : Vec Ideal S10000x64 .f32) (x1 : Vec Ideal S64x32 .f32) (p : Fin 10000) (q : Fin 32) :
    k4_pay1 x0 x1 (ix2 p q) = ∑ k : Fin 64, x0 (ix2 p k) * x1 (ix2 k q) := by
  unfold k4_pay1
  refine (Cert.Products.block64_apply _ _ p q).trans ?_
  simp only [shapeCast_self, truncf_apply]

/-- Block t of the left array and of the output starts at row 10000·t, column 0; the weight block is always block (0, 0). -/
theorem block_origin : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left block of point t, at (p, k), is the left array at (10000·t + p, k). -/
theorem left_block_apply (c : Dev nD) (t : Fin cfg4.N) (y : S10000x64.Idx) (k : S100000x64.Idx)
    (hk0 : (k 0).val = 10000 * t.val + (y 0).val) (hk1 : (k 1).val = (y 1).val) :
    (iblk4 V c 0 t : Vec Ideal S10000x64 .f32) y = (V c main_v49 : S100000x64.Idx → Elt Ideal .f32) k := by
  obtain ⟨e0, e1, -⟩ := block_origin t
  unfold iblk4
  rw [View.read_apply]
  show V c main_v49 _ = V c main_v49 _
  congr 1
  funext a
  apply Fin.ext
  match a with
  | ⟨0, _⟩ => show win4_0.index t 0 * 10000 + 1 * (y 0).val = (k 0).val; rw [e0, hk0]; omega
  | ⟨1, _⟩ => show win4_0.index t 1 * 64 + 1 * (y 1).val = (k 1).val; rw [e1, hk1]; omega

/-- The weight block of any point is the weight array. -/
theorem weight_block_apply (c : Dev nD) (t : Fin cfg4.N) (y : S64x32.Idx) :
    (iblk4 V c 1 t : Vec Ideal S64x32 .f32) y = (V c main_arg7 : S64x32.Idx → Elt Ideal .f32) y := by
  obtain ⟨-, -, e2, e3, -⟩ := block_origin t
  unfold iblk4
  rw [View.read_apply]
  show V c main_arg7 _ = V c main_arg7 _
  congr 1
  funext a
  apply Fin.ext
  match a with
  | ⟨0, _⟩ => show win4_1.index t 0 * 64 + 1 * (y 0).val = (y 0).val; rw [e2]; omega
  | ⟨1, _⟩ => show win4_1.index t 1 * 32 + 1 * (y 1).val = (y 1).val; rw [e3]; omega

/-- The whole output: the host's product of the left array and the weights. -/
abbrev product (c : Dev nD) : FVec Ideal S100000x32 .f32 :=
  Host.dotGeneral (F := Ideal) (φ₁ := .f32) (φ₂ := .f32) Cert.ReferenceIdeal.dot_S100000x64_S64x32_S100000x32_1_0_0_1_n_n none
    (V c main_v49) (V c main_arg7)

/-- What point t writes back is block t of that product. -/
theorem flushed_eq (c : Dev nD) (t : Fin cfg4.N) :
    (dat4 V c).flushed 2 t = ((cfg4.win 2).blk t).view.read (Elt Ideal) (product V c) := by
  show (cfg4.win 2).cut (grid4.coords t) ((dat4 V c).after 2 t) = _
  rw [after4_2]
  unfold out4_2
  rw [View.canon_unit_zero zero_offsets]
  simp only [View.ld_unit_zero (S := S10000x64) zero_offsets, View.ld_unit_zero (S := S64x32) zero_offsets]
  obtain ⟨-, -, -, -, e4, e5⟩ := block_origin t
  have ht : t.val < 10 := lt_of_lt_of_eq t.isLt N_4
  funext j
  obtain ⟨p, q, rfl⟩ : ∃ (p : Fin 10000) (q : Fin 32), j = ix2 p q := ⟨j 0, j 1, eq_ix2 j⟩
  have hlt : 10000 * t.val + p.val < 100000 := by have := p.isLt; omega
  show k4_pay1 (iblk4 V c 0 t) (iblk4 V c 1 t) (ix2 p q) = product V c (((cfg4.win 2).blk t).view.emb (ix2 p q))
  have hrow : (((cfg4.win 2).blk t).view.emb (ix2 p q) 0).val = 10000 * t.val + p.val := by
    show win4_2.index t 0 * 10000 + 1 * p.val = _
    rw [e4]; omega
  have hcol : (((cfg4.win 2).blk t).view.emb (ix2 p q) 1).val = q.val := by
    show win4_2.index t 1 * 32 + 1 * q.val = _
    rw [e5]; omega
  have hidx : (((cfg4.win 2).blk t).view.emb (ix2 p q) : S100000x32.Idx)
      = ix2 (⟨10000 * t.val + p.val, hlt⟩ : Fin 100000) q := funext fun a => Fin.ext (by
    fin_cases a
    · exact hrow
    · exact hcol)
  refine ((block_product_apply _ _ p q).trans ?_).trans
    ((Cert.Products.host64_apply (V c main_v49) (V c main_arg7) (⟨10000 * t.val + p.val, hlt⟩ : Fin 100000) q).symm.trans
      (congrArg (product V c) hidx.symm))
  refine Finset.sum_congr rfl fun k _ => ?_
  rw [left_block_apply V c t (ix2 p k) (ix2 (⟨10000 * t.val + p.val, hlt⟩ : Fin 100000) k) rfl rfl,
    weight_block_apply V c t (ix2 k q)]

/-- An entry of the output array lies in block t exactly when each coordinate lies in the block's range. -/
theorem mem_block (t : Fin cfg4.N) (i : S100000x32.Idx) :
    i ∈ ((cfg4.win 2).blk t).view.set ↔ ∀ a : Fin 2, win4_2.index t a * S10000x32.size a ≤ (i a).val
      ∧ (i a).val < win4_2.index t a * S10000x32.size a + S10000x32.size a := by
  show i ∈ ((View.whole main_v65).slice (win4_2.rect t)).set ↔ _
  rw [View.set_slice_whole, Rect.mem_set_unit]
  exact Iff.rfl

/-- Every entry lies in the block of the point (row / 10000). -/
theorem covered (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, e4, e5⟩ := block_origin t
  refine ⟨t, flush4_2 t, ?_⟩
  rw [mem_block]
  intro a
  match a with
  | ⟨0, _⟩ =>
    show win4_2.index t 0 * 10000 ≤ (i 0).val ∧ (i 0).val < win4_2.index t 0 * 10000 + 10000
    rw [e4, ht]; omega
  | ⟨1, _⟩ =>
    show win4_2.index t 1 * 32 ≤ (i 1).val ∧ (i 1).val < win4_2.index t 1 * 32 + 32
    rw [e5]; omega

/-- After the call the output array is the host's product of the left array and the weights. -/
theorem output (c : Dev nD) : (dat4 V c).arrAt 2 cfg4.N = product V c :=
  (dat4 V c).arrAt_eq_of_cover 2 (product V c) (fun t _ => flushed_eq V c t) covered

end Cert.KernelIdeal.Linear4

end
-- ==== Proof.Scale5.lean ====
/-
  Pallas call 5 of the program multiplies every row of an edge-feature array by that edge's normalisation factor:
  the feature array has 1,700,000 rows of 32 numbers, the factors are a column of 1,700,000 numbers, and the call walks
  over 250 blocks of 6,800 rows.  Block t of the output holds, at row p and column q, the product of the feature at
  row 6800·t + p, column q and the factor of row 6800·t + p.  The 250 blocks tile the array, so the whole output is the
  feature array times the factor column repeated along the columns — the same array the host operations
  "broadcast the column to 32 columns, then multiply" produce.
-/
import proofs.«117165_j50242527428955_2_alg».proof.Proof.Gen.KernelIdeal.Frame
import proofs.«117165_j50242527428955_2_alg».proof.Proof.LibKeepdims
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale5

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- One block's arithmetic at row p, column q: the feature times the factor of row p. -/
theorem product_apply (x0 : Vec Ideal S6800x32 .f32) (x1 : Vec Ideal S6800x1 .f32) (p : Fin 6800) (q : Fin 32) :
    k5_pay1 x0 x1 (ix2 p q) = x0 (ix2 p q) * x1 (ix2 p (0 : Fin 1)) := by
  unfold k5_pay1
  rw [mulf_apply, shapeCast_self, shapeCast_self, Keepdims.broadcastTo_a1_ab_apply]

/-- Block t of each of the three arrays starts at row 6800·t and column 0. -/
theorem block_origin : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The feature block of point t, at (p, q), is the feature array at (6800·t + p, q). -/
theorem feature_block_apply (c : Dev nD) (t : Fin cfg5.N) (y : S6800x32.Idx) (k : S1700000x32.Idx)
    (hk0 : (k 0).val = 6800 * t.val + (y 0).val) (hk1 : (k 1).val = (y 1).val) :
    (iblk5 V c 0 t : Vec Ideal S6800x32 .f32) y = (V c main_v72 : S1700000x32.Idx → Elt Ideal .f32) k := by
  obtain ⟨e0, e1, -⟩ := block_origin t
  unfold iblk5
  rw [View.read_apply]
  show V c main_v72 _ = V c main_v72 _
  congr 1
  funext a
  apply Fin.ext
  match a with
  | ⟨0, _⟩ => show win5_0.index t 0 * 6800 + 1 * (y 0).val = (k 0).val; rw [e0, hk0]; omega
  | ⟨1, _⟩ => show win5_0.index t 1 * 32 + 1 * (y 1).val = (k 1).val; rw [e1, hk1]; omega

/-- The factor block of point t, at (p, 0), is the factor column at (6800·t + p, 0). -/
theorem factor_block_apply (c : Dev nD) (t : Fin cfg5.N) (y : S6800x1.Idx) (k : S1700000x1.Idx)
    (hk0 : (k 0).val = 6800 * t.val + (y 0).val) (hk1 : (k 1).val = (y 1).val) :
    (iblk5 V c 1 t : Vec Ideal S6800x1 .f32) y = (V c main_v32 : S1700000x1.Idx → Elt Ideal .f32) k := by
  obtain ⟨-, -, e2, e3, -⟩ := block_origin t
  unfold iblk5
  rw [View.read_apply]
  show V c main_v32 _ = V c main_v32 _
  congr 1
  funext a
  apply Fin.ext
  match a with
  | ⟨0, _⟩ => show win5_1.index t 0 * 6800 + 1 * (y 0).val = (k 0).val; rw [e2, hk0]; omega
  | ⟨1, _⟩ => show win5_1.index t 1 * 1 + 1 * (y 1).val = (k 1).val; rw [e3, hk1]; omega

/-- The whole output: the feature array times the factor column repeated along the 32 columns. -/
abbrev scaled (hb : S1700000x1.BroadcastsInDim S1700000x32 (![0, 1] : Fin 2 → Fin S1700000x32.rank)) (c : Dev nD) :
    FVec Ideal S1700000x32 .f32 :=
  mulf (F := Ideal) (V c main_v72 : FVec Ideal S1700000x32 .f32)
    (broadcastInDim S1700000x32 ![0, 1] hb (V c main_v32 : FVec Ideal S1700000x1 .f32))

/-- What point t writes back is block t of that array. -/
theorem flushed_eq (hb : S1700000x1.BroadcastsInDim S1700000x32 (![0, 1] : Fin 2 → Fin S1700000x32.rank))
    (c : Dev nD) (t : Fin cfg5.N) :
    (dat5 V c).flushed 2 t = ((cfg5.win 2).blk t).view.read (Elt Ideal) (scaled V hb c) := by
  show (cfg5.win 2).cut (grid5.coords t) ((dat5 V c).after 2 t) = _
  rw [after5_2]
  unfold out5_2
  rw [View.canon_unit_zero zero_offsets]
  simp only [View.ld_unit_zero (S := S6800x32) zero_offsets, View.ld_unit_zero (S := S6800x1) zero_offsets]
  obtain ⟨-, -, -, -, e4, e5⟩ := block_origin t
  have ht : t.val < 250 := lt_of_lt_of_eq t.isLt N_5
  funext j
  obtain ⟨p, q, rfl⟩ : ∃ (p : Fin 6800) (q : Fin 32), j = ix2 p q := ⟨j 0, j 1, eq_ix2 j⟩
  have hlt : 6800 * t.val + p.val < 1700000 := by have := p.isLt; omega
  show k5_pay1 (iblk5 V c 0 t) (iblk5 V c 1 t) (ix2 p q) = scaled V hb c (((cfg5.win 2).blk t).view.emb (ix2 p q))
  have hrow : (((cfg5.win 2).blk t).view.emb (ix2 p q) 0).val = 6800 * t.val + p.val := by
    show win5_2.index t 0 * 6800 + 1 * p.val = _
    rw [e4]; omega
  have hcol : (((cfg5.win 2).blk t).view.emb (ix2 p q) 1).val = q.val := by
    show win5_2.index t 1 * 32 + 1 * q.val = _
    rw [e5]; omega
  have hspread : ∀ a : Fin S1700000x1.rank,
      ((ix2 (⟨6800 * t.val + p.val, hlt⟩ : Fin 1700000) (0 : Fin 1) : S1700000x1.Idx) a).val
        = if S1700000x1.size a = 1 then 0
          else ((((cfg5.win 2).blk t).view.emb (ix2 p q)) ((![0, 1] : Fin 2 → Fin S1700000x32.rank) a)).val := by
    intro a
    fin_cases a
    · rw [if_neg (by decide)]; exact hrow.symm
    · rw [if_pos (by decide)]; rfl
  refine (product_apply _ _ p q).trans ?_
  rw [feature_block_apply V c t (ix2 p q) _ hrow hcol,
    factor_block_apply V c t (ix2 p (0 : Fin 1)) (ix2 (⟨6800 * t.val + p.val, hlt⟩ : Fin 1700000) (0 : Fin 1)) rfl rfl,
    ← broadcastInDim_apply (![0, 1] : Fin 2 → Fin S1700000x32.rank) hb (V c main_v32 : FVec Ideal S1700000x1 .f32) _ _ hspread]
  rfl

/-- An entry of the output array lies in block t exactly when each coordinate lies in the block's range. -/
theorem mem_block (t : Fin cfg5.N) (i : S1700000x32.Idx) :
    i ∈ ((cfg5.win 2).blk t).view.set ↔ ∀ a : Fin 2, win5_2.index t a * S6800x32.size a ≤ (i a).val
      ∧ (i a).val < win5_2.index t a * S6800x32.size a + S6800x32.size a := by
  show i ∈ ((View.whole main_v73).slice (win5_2.rect t)).set ↔ _
  rw [View.set_slice_whole, Rect.mem_set_unit]
  exact Iff.rfl

/-- Every entry lies in the block of the point (row / 6800). -/
theorem covered (i : S1700000x32.Idx) :
    ∃ t : Fin cfg5.N, (cfg5.win 2).flush t = true ∧ i ∈ ((cfg5.win 2).blk t).view.set := by
  have hi0 : (i 0).val < 1700000 := (i 0).isLt
  have hi1 : (i 1).val < 32 := (i 1).isLt
  have hN : cfg5.N = 250 := N_5
  obtain ⟨t, ht⟩ : ∃ t : Fin cfg5.N, t.val = (i 0).val / 6800 := ⟨⟨(i 0).val / 6800, by rw [hN]; omega⟩, rfl⟩
  obtain ⟨-, -, -, -, e4, e5⟩ := block_origin t
  refine ⟨t, flush5_2 t, ?_⟩
  rw [mem_block]
  intro a
  match a with
  | ⟨0, _⟩ =>
    show win5_2.index t 0 * 6800 ≤ (i 0).val ∧ (i 0).val < win5_2.index t 0 * 6800 + 6800
    rw [e4, ht]; omega
  | ⟨1, _⟩ =>
    show win5_2.index t 1 * 32 ≤ (i 1).val ∧ (i 1).val < win5_2.index t 1 * 32 + 32
    rw [e5]; omega

/-- After the call the output array is the feature array times the spread factor column. -/
theorem output (hb : S1700000x1.BroadcastsInDim S1700000x32 (![0, 1] : Fin 2 → Fin S1700000x32.rank)) (c : Dev nD) :
    (dat5 V c).arrAt 2 cfg5.N = scaled V hb c :=
  (dat5 V c).arrAt_eq_of_cover 2 (scaled V hb c) (fun t _ => flushed_eq V hb c t) covered

end Cert.KernelIdeal.Scale5

end
-- ==== Proof.LayerLogvar.lean ====
/-
  The second layer's second head, the same steps with W_lv and b_lv (Pallas calls 4 and 5): the program's second
  result.  The first result, written before these segments, is not touched by them.
-/
import proofs.«117165_j50242527428955_2_alg».proof.Proof.Gen.KernelIdeal.Frame
import proofs.«117165_j50242527428955_2_alg».proof.Proof.Gen.ReferenceIdeal.Read
import Idealize.ShloMosaic.Lib.StableHlo.Run
import proofs.«117165_j50242527428955_2_alg».proof.Proof.Entry0
import proofs.«117165_j50242527428955_2_alg».proof.Proof.Entry1
import proofs.«117165_j50242527428955_2_alg».proof.Proof.Layer1
import proofs.«117165_j50242527428955_2_alg».proof.Proof.LayerMu
import proofs.«117165_j50242527428955_2_alg».proof.Proof.Linear4
import proofs.«117165_j50242527428955_2_alg».proof.Proof.Scale5

set_option maxRecDepth 16384

noncomputable section

namespace Cert.KernelIdeal.LayerLogvar

open Cert.KernelIdeal Cert.KernelIdeal.Gen
open Idealize.ShloMosaic Idealize.ShloMosaic.TcCoe Idealize.SL.Sem

/-- A buffer that no operation of a stretch of host operations writes holds after the stretch what it held before. -/
local macro "kept_through" ops:ident "at" b:ident : term =>
  `(StableHlo.after_of_forall_not_mem (b := Proc.devRef .tc $b) _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

open Cert.KernelIdeal.Entry0
open Cert.KernelIdeal.Entry1
open Cert.KernelIdeal.Layer1
open Cert.KernelIdeal.LayerMu

variable (m : (ℓ : Loc nD τ sig) → Buf (Elt Ideal) ℓ) (ρ : Dev nD → PrngReg) (c : Dev nD)

/-! ## Boundary 12: after Pallas call 4 -/

theorem at12_v64 : W12 m ρ c (Proc.devRef .tc main_v64) = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W12_of_ne m ρ c main_v64 (by decide)).trans (at11_v64 m ρ c)

theorem at12_v5 : W12 m ρ c (Proc.devRef .tc main_v5) = Cert.ReferenceIdeal.Read.val_main_v5 (F := Ideal) (m ((c : Thread nD τ).loc main_arg1)) :=
  (W12_of_ne m ρ c main_v5 (by decide)).trans (at11_v5 m ρ c)

theorem at12_v6 : W12 m ρ c (Proc.devRef .tc main_v6) = Cert.ReferenceIdeal.Read.val_main_v6 (F := Ideal) (m ((c : Thread nD τ).loc main_arg1)) :=
  (W12_of_ne m ρ c main_v6 (by decide)).trans (at11_v6 m ρ c)

theorem at12_v32 : W12 m ρ c (Proc.devRef .tc main_v32) = Cert.ReferenceIdeal.Read.val_main_v40 (F := Ideal) (m ((c : Thread nD τ).loc main_arg1)) (m ((c : Thread nD τ).loc main_arg2)) :=
  (W12_of_ne m ρ c main_v32 (by decide)).trans (at11_v32 m ρ c)

theorem at12_arg8 : W12 m ρ c (Proc.devRef .tc main_arg8) = (m ((c : Thread nD τ).loc main_arg8)) :=
  (W12_of_ne m ρ c main_arg8 (by decide)).trans (at11_arg8 m ρ c)

theorem at12_v65 : W12 m ρ c (Proc.devRef .tc main_v65) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (W12_arr m ρ c 2).trans ((Cert.KernelIdeal.Linear4.output (V11 m ρ) c).trans ?_)
  dsimp only [Cert.KernelIdeal.Linear4.product, V11]
  rw [at11_v49 m ρ c, at11_arg7 m ρ c]
  rfl

/-! ## Boundary 13: after the next stretch of host operations -/

theorem at13_v64 : W13 m ρ c (Proc.devRef .tc main_v64) = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (kept_through hostOps5 at main_v64 : W13 m ρ c (Proc.devRef .tc main_v64) = W12 m ρ c (Proc.devRef .tc main_v64)).trans (at12_v64 m ρ c)

theorem at13_v32 : W13 m ρ c (Proc.devRef .tc main_v32) = Cert.ReferenceIdeal.Read.val_main_v40 (F := Ideal) (m ((c : Thread nD τ).loc main_arg1)) (m ((c : Thread nD τ).loc main_arg2)) :=
  (kept_through hostOps5 at main_v32 : W13 m ρ c (Proc.devRef .tc main_v32) = W12 m ρ c (Proc.devRef .tc main_v32)).trans (at12_v32 m ρ c)

theorem at13_v6 : W13 m ρ c (Proc.devRef .tc main_v6) = Cert.ReferenceIdeal.Read.val_main_v6 (F := Ideal) (m ((c : Thread nD τ).loc main_arg1)) :=
  (kept_through hostOps5 at main_v6 : W13 m ρ c (Proc.devRef .tc main_v6) = W12 m ρ c (Proc.devRef .tc main_v6)).trans (at12_v6 m ρ c)

theorem at13_arg8 : W13 m ρ c (Proc.devRef .tc main_arg8) = (m ((c : Thread nD τ).loc main_arg8)) :=
  (kept_through hostOps5 at main_arg8 : W13 m ρ c (Proc.devRef .tc main_arg8) = W12 m ρ c (Proc.devRef .tc main_arg8)).trans (at12_arg8 m ρ c)

theorem at13_v72 : W13 m ρ c (Proc.devRef .tc main_v72) = Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  show StableHlo.after hostOps5 (W12 m ρ c) (Proc.devRef .tc main_v72) = _
  after_results
  rw [at12_v65 m ρ c, at12_v5 m ρ c]
  rfl

/-! ## Boundary 14: after Pallas call 5 -/

theorem at14_v64 : W14 m ρ c (Proc.devRef .tc main_v64) = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W14_of_ne m ρ c main_v64 (by decide)).trans (at13_v64 m ρ c)

theorem at14_v6 : W14 m ρ c (Proc.devRef .tc main_v6) = Cert.ReferenceIdeal.Read.val_main_v6 (F := Ideal) (m ((c : Thread nD τ).loc main_arg1)) :=
  (W14_of_ne m ρ c main_v6 (by decide)).trans (at13_v6 m ρ c)

theorem at14_arg8 : W14 m ρ c (Proc.devRef .tc main_arg8) = (m ((c : Thread nD τ).loc main_arg8)) :=
  (W14_of_ne m ρ c main_arg8 (by decide)).trans (at13_arg8 m ρ c)

theorem at14_v73 : W14 m ρ c (Proc.devRef .tc main_v73) = Cert.ReferenceIdeal.Read.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (W14_arr m ρ c 2).trans ((Cert.KernelIdeal.Scale5.output (V13 m ρ) (by decide) c).trans ?_)
  dsimp only [Cert.KernelIdeal.Scale5.scaled, V13]
  rw [at13_v72 m ρ c, at13_v32 m ρ c]
  rfl

/-! ## Boundary 15: after the next stretch of host operations -/

theorem at15_v64 : W15 m ρ c (Proc.devRef .tc main_v64) = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (kept_through hostOps6 at main_v64 : W15 m ρ c (Proc.devRef .tc main_v64) = W14 m ρ c (Proc.devRef .tc main_v64)).trans (at14_v64 m ρ c)

theorem at15_v79 : W15 m ρ c (Proc.devRef .tc main_v79) = Cert.ReferenceIdeal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  show StableHlo.after hostOps6 (W14 m ρ c) (Proc.devRef .tc main_v79) = _
  after_results
  rw [at14_v6 m ρ c, at14_v73 m ρ c, at14_arg8 m ρ c]
  rfl

end Cert.KernelIdeal.LayerLogvar

end
-- ==== Proof.lean ====
/-
  The two programs compute a two-layer graph convolution with two heads: from node features x, an edge list with
  weights, and the weights and biases of three linear maps, the two results are
      mu     = Â · relu(Â · (x W1) + b1) · W_mu + b_mu      and      logvar = Â · relu(Â · (x W1) + b1) · W_lv + b_lv,
  where Â adds, into each target node, the rows of its sources scaled by  dinv[source] · weight · dinv[target]
  (self loops of weight 1 included, dinv = 1/sqrt(degree) where the degree is positive and 0 elsewhere).

  The Pallas program performs the three matrix products and the three row scalings in six Pallas calls and everything
  else in host operations that are, operation for operation, the host program's own.  Read with exact numbers, a
  product into a zero accumulator is the plain sum of products, and a row scaled inside a block is the row times the
  factor column spread over the columns; so each call's output array is the host program's stage, and after the last
  segment the two result buffers hold the host program's results of the same arguments.  No law beyond the
  definition of a matrix product as a sum is used, and the precondition is not needed.
-/
import proofs.«117165_j50242527428955_2_alg».proof.Defs
import proofs.«117165_j50242527428955_2_alg».proof.Proof.Gen.Kernel
import proofs.«117165_j50242527428955_2_alg».proof.Proof.Gen.Kernel.Frame
import proofs.«117165_j50242527428955_2_alg».proof.Proof.Gen.KernelIdeal
import proofs.«117165_j50242527428955_2_alg».proof.Proof.Gen.KernelIdeal.Frame
import proofs.«117165_j50242527428955_2_alg».proof.Proof.Gen.ReferenceIdeal
import proofs.«117165_j50242527428955_2_alg».proof.Proof.Gen.Pre_finite_inputs
import proofs.«117165_j50242527428955_2_alg».proof.Proof.Gen.ReferenceIdeal.Run
import proofs.«117165_j50242527428955_2_alg».proof.Proof.Gen.ReferenceIdeal.Read
import proofs.«117165_j50242527428955_2_alg».proof.Proof.KernelRun
import proofs.«117165_j50242527428955_2_alg».proof.Proof.LayerLogvar
import Idealize.ShloMosaic.Adequacy
import Idealize.ShloMosaic.Init

set_option maxRecDepth 16384

noncomputable section

namespace Cert.Proof

open Idealize.ShloMosaic Idealize.ShloMosaic.TcCoe Idealize.SL.Sem

/-- Each program runs to the end without a fault and leaves its arguments as launched. -/
theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2.2) (Cert.ReferenceIdeal.Value.run (F := Ideal) m ρ)

/-- The idealized Pallas program is the program's own text read with exact numbers: nothing was rewritten. -/
theorem preserves : Cert.preserves_Kernel_KernelIdeal := trivial

/-- From memories that agree on the arguments both programs end with the same two results: the Pallas program's
    result buffers hold the last boundary's contents, which are the host program's two result stages of the
    arguments; the host program's run ends at those stages by its own reading. -/
theorem algebraic : Cert.algebraic_KernelIdeal_ReferenceIdeal := by
  intro m ρ m' ρ' _ hagree
  refine ⟨fun c => Cert.KernelIdeal.Gen.W15 m ρ c (Proc.devRef .tc Cert.KernelIdeal.main_v64),
    fun c => Cert.KernelIdeal.Gen.W15 m ρ c (Proc.devRef .tc Cert.KernelIdeal.main_v79),
    Cert.KernelIdeal.LastBoundary.run m ρ, ?_⟩
  refine (θ_run Cert.ReferenceIdeal.defs _ _).mono (fun _ h c => ?_) (Cert.ReferenceIdeal.Value.run (F := Ideal) m' ρ')
  obtain ⟨h0, h1, hargs⟩ := h c
  obtain ⟨a0, a1, a2, a3, a4, a5, a6, a7, a8⟩ := hagree c
  refine ⟨h0.trans ?_, h1.trans ?_, hargs⟩
  · refine (Cert.ReferenceIdeal.Read.val_main_v98_eq m' c).trans ?_
    rw [a0, a1, a2, a3, a4, a5, a6]
    exact (Cert.KernelIdeal.LayerLogvar.at15_v64 m ρ c).symm
  · refine (Cert.ReferenceIdeal.Read.val_main_v147_eq m' c).trans ?_
    rw [a0, a1, a2, a3, a4, a7, a8]
    exact (Cert.KernelIdeal.LayerLogvar.at15_v79 m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
